-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_1)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_1) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x1536 : Shape := ⟨2, ![512, 1536]⟩
abbrev S1536 : Shape := ⟨1, ![1536]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8192x512 .f32) (main_arg1 : FVec F S8192x8192 .f32) (main_arg2 : FVec F S512x1536 .f32) (main_arg3 : FVec F S1536 .f32) (main_arg4 : FVec F S512x512 .f32) (main_arg5 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x1536 .f32 := Host.absf main_arg2
  let main_cst_2 : FVec F S_ .f32 := constant S_ .f32 0x7F800000#32
  let main_v10 : FVec F S512x1536 .f32 := broadcastInDim S512x1536 ![] bcast_S_S512x1536 main_cst_2
  let main_v11 : IVec S512x1536 1 := cmpf .olt main_v9 main_v10
  let main_c_3 : IVec S_ 1 := constantI S_ 1 1#1
  let main_v12 : IVec S_ 1 := (fun x v => Host.reduce IntOp.andi x v reducesTo_S512x1536_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_v13 main_v16
-- ==== Kernel.lean ====
abbrev S8192x512 : Shape := ⟨2, ![8192, 512]⟩
abbrev S8192x8192 : Shape := ⟨2, ![8192, 8192]⟩
abbrev S512x1536 : Shape := ⟨2, ![512, 1536]⟩
abbrev S1536 : Shape := ⟨1, ![1536]⟩
abbrev S512x512 : Shape := ⟨2, ![512, 512]⟩
abbrev S512 : Shape := ⟨1, ![512]⟩
abbrev S1x1536 : Shape := ⟨2, ![1, 1536]⟩
abbrev S1024x512 : Shape := ⟨2, ![1024, 512]⟩
abbrev S1024x1536 : Shape := ⟨2, ![1024, 1536]⟩
abbrev S1024x2048 : Shape := ⟨2, ![1024, 2048]⟩
abbrev S2048x512 : Shape := ⟨2, ![2048, 512]⟩
abbrev S1x512 : Shape := ⟨2, ![1, 512]⟩
abbrev S64x512 : Shape := ⟨2, ![64, 512]⟩
abbrev S64x8192 : Shape := ⟨2, ![64, 8192]⟩
abbrev S64 : Shape := ⟨1, ![64]⟩
abbrev S64x1 : Shape := ⟨2, ![64, 1]⟩

abbrev nBuf : Space → Nat
  | .hbm => 16
  | .vmem => 27
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x1536, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S512x1536, .bf16⟩
  | .hbm, ⟨7, _⟩ => ⟨S1x1536, .f32⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x512, .f32⟩
  | .hbm, ⟨12, _⟩ => ⟨S512x512, .bf16⟩
  | .hbm, ⟨13, _⟩ => ⟨S1x512, .f32⟩
  | .hbm, ⟨14, _⟩ => ⟨S8192x8192, .f32⟩
  | .hbm, ⟨15, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x1536, .bf16⟩
  | .local _ .vmem, ⟨3, _⟩ => ⟨S1x1536, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x2048, .f32⟩
  | .local _ .vmem, ⟨11, _⟩ => ⟨S1024x2048, .f32⟩
  | .local _ .vmem, ⟨12, _⟩ => ⟨S2048x512, .bf16⟩
  | .local _ .vmem, ⟨13, _⟩ => ⟨S2048x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S64x512, .bf16⟩
  | .local _ .vmem, ⟨18, _⟩ => ⟨S64x512, .bf16⟩
  | .local _ .vmem, ⟨19, _⟩ => ⟨S8192x512, .f32⟩
  | .local _ .vmem, ⟨20, _⟩ => ⟨S8192x512, .bf16⟩
  | .local _ .vmem, ⟨21, _⟩ => ⟨S512x512, .bf16⟩
  | .local _ .vmem, ⟨22, _⟩ => ⟨S1x512, .f32⟩
  | .local _ .vmem, ⟨23, _⟩ => ⟨S64x8192, .f32⟩
  | .local _ .vmem, ⟨24, _⟩ => ⟨S64x8192, .f32⟩
  | .local _ .vmem, ⟨25, _⟩ => ⟨S64x512, .f32⟩
  | .local _ .vmem, ⟨26, _⟩ => ⟨S64x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8192x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S64x8192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S64x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bitsLt_bf16_f32 : FTy.bits .bf16 < FTy.bits .f32
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x512 : S1024x1536.Slices ![0, 0] S1024x512
  packedbf16_S1024x512_S1024x512_0_0 : (Rect.unit (s := S1024x512) ![0, 0] S1024x512.size inb_S1024x512_S1024x512_0_0).PackedRows (EltTy.packing .bf16)
  slices_S1024x1536_o0_512_S1024x512 : S1024x1536.Slices ![0, 512] S1024x512
  slices_S1024x1536_o0_1024_S1024x512 : S1024x1536.Slices ![0, 1024] S1024x512
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S512_S1x512 : S512.ShapeCasts S1x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  reduces_S64x8192_S64 : S64x8192.Reduces [1] S64
  shapeCasts_S64_S64x1 : S64.ShapeCasts S64x1
  broadcasts_S64x1_S64x8192 : S64x1.Broadcasts S64x8192
  inb_S64x8192_S64x8192_0_0 : ∀ a, (![0, 0] : Fin 2 → Nat) a + S64x8192.size a ≤ S64x8192.size a
  h_S64x8192 : 0 < S64x8192.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  dot_S1024x512_S512x1536_S1024x1536_1_0_0_1_n_n_wf : DotDims.WF S1024x512 S512x1536 S1024x1536 [1] [0] [0] [1] [] []
  dot_S1024x2048_S2048x512_S1024x512_1_0_0_1_n_n_wf : DotDims.WF S1024x2048 S2048x512 S1024x512 [1] [0] [0] [1] [] []
  dot_S64x512_S8192x512_S64x8192_1_1_0_0_n_n_wf : DotDims.WF S64x512 S8192x512 S64x8192 [1] [1] [0] [0] [] []
  dot_S64x8192_S8192x512_S64x512_1_0_0_1_n_n_wf : DotDims.WF S64x8192 S8192x512 S64x512 [1] [0] [0] [1] [] []
  dot_S64x512_S512x512_S64x512_1_0_0_1_n_n_wf : DotDims.WF S64x512 S512x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .bf16 = 32 ∨ (Rect.block (s := S8192x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .bf16 = 32 ∨ (Rect.block (s := S8192x512) S1024x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .bf16 = 32 ∨ (Rect.block (s := S8192x512) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x512.size a ≤ S8192x512.size a
  hwx2_0 : ∀ i : grid2.Coords, EltTy.bits .bf16 = 32 ∨ (Rect.block (s := S8192x512) S64x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x512.size a ≤ S8192x512.size a
  hwx2_1 : ∀ i : grid2.Coords, EltTy.bits .f32 = 32 ∨ (Rect.block (s := S8192x512) S8192x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x512.size a ≤ S8192x512.size a
  hwx2_2 : ∀ i : grid2.Coords, EltTy.bits .bf16 = 32 ∨ (Rect.block (s := S8192x512) S8192x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S64x8192.size a ≤ S8192x8192.size a
  hwx2_5 : ∀ i : grid2.Coords, EltTy.bits .f32 = 32 ∨ (Rect.block (s := S8192x8192) S64x8192.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S64x512.size a ≤ S8192x512.size a
  hwx2_6 : ∀ i : grid2.Coords, EltTy.bits .f32 = 32 ∨ (Rect.block (s := S8192x512) S64x512.size (cc2_transform_6 i) (hinb2_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S64x512_S8192x512_S64x8192_1_1_0_0_n_n : DotDims S64x512 S8192x512 S64x8192 where
  lhsContracting := [1]
  rhsContracting := [1]
  lhsNonContracting := [0]
  rhsNonContracting := [0]
  lhsBatch := []
  rhsBatch := []
  wf := dot_S64x512_S8192x512_S64x8192_1_1_0_0_n_n_wf
def dot_S64x8192_S8192x512_S64x512_1_0_0_1_n_n : DotDims S64x8192 S8192x512 S64x512 where
  lhsContracting := [1]
  rhsContracting := [0]
  lhsNonContracting := [0]
  rhsNonContracting := [1]
  lhsBatch := []
  rhsBatch := []
  wf := dot_S64x8192_S8192x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v2_0) S64x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S8192x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2_2) S8192x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6_0) S64x8192.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v6_1) S64x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x1536 : Shape := ⟨2, ![512, 1536]⟩
abbrev S1536 : Shape := ⟨1, ![1536]⟩
abbrev S512x512 : Shape := ⟨2, ![512, 512]⟩
abbrev S512 : Shape := ⟨1, ![512]⟩
abbrev S8192x1536 : Shape := ⟨2, ![8192, 1536]⟩
abbrev S1x1536 : Shape := ⟨2, ![1, 1536]⟩
abbrev S512x8192 : Shape := ⟨2, ![512, 8192]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x1536, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S8192x1536, .f32⟩
  | .hbm, ⟨7, _⟩ => ⟨S1x1536, .f32⟩
  | .hbm, ⟨8, _⟩ => ⟨S8192x1536, .f32⟩
  | .hbm, ⟨9, _⟩ => ⟨S8192x1536, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S512x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S1536_S1x1536_1 : S1536.BroadcastsInDim S1x1536 (![1] : Fin 1 → Fin S1x1536.rank)
  bcast_S1x1536_S8192x1536_0_1 : S1x1536.BroadcastsInDim S8192x1536 (![0, 1] : Fin 2 → Fin S8192x1536.rank)
  slices_S8192x1536_S8192x512_0_0 : S8192x1536.Slices ![0, 0] S8192x512
  slices_S8192x1536_S8192x512_0_512 : S8192x1536.Slices ![0, 512] S8192x512
  slices_S8192x1536_S8192x512_0_1024 : S8192x1536.Slices ![0, 1024] S8192x512
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x1536_S8192x1536_1_0_0_1_n_n_wf : DotDims.WF S8192x512 S512x1536 S8192x1536 [1] [0] [0] [1] [] []
  dot_S8192x8192_S8192x512_S8192x512_1_0_0_1_n_n_wf : DotDims.WF S8192x8192 S8192x512 S8192x512 [1] [0] [0] [1] [] []
  dot_S8192x512_S512x8192_S8192x8192_1_0_0_1_n_n_wf : DotDims.WF S8192x512 S512x8192 S8192x8192 [1] [0] [0] [1] [] []
  dot_S8192x512_S512x512_S8192x512_1_0_0_1_n_n_wf : DotDims.WF S8192x512 S512x512 S8192x512 [1] [0] [0] [1] [] []

variable [Facts₀]

def dot_S8192x512_S512x1536_S8192x1536_1_0_0_1_n_n : DotDims S8192x512 S512x1536 S8192x1536 where
  lhsContracting := [1]
  rhsContracting := [0]
  lhsNonContracting := [0]
  rhsNonContracting := [1]
  lhsBatch := []
  rhsBatch := []
  wf := dot_S8192x512_S512x1536_S8192x1536_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.B.R0.lean ====
/-
  The projection launch (the first of the program's three), at any float instance and at a parameter `V`: the
  contents of the core's unscoped buffers when the launch is entered.

  The grid has 8 points. At point `t` the body reads a block of 1024 rows of the [8192, 512] input, the whole
  [512, 1536] weight and the [1, 1536] bias row, forms the [1024, 1536] block of x·W + b, and stores its three
  column blocks of width 512 whole into the three output windows' buffers (the loads of those buffers that precede
  the stores read whatever the buffers hold and are not used). Nothing is kept between points, so the launch's
  invariant is the class one: the scoped buffers that are no staging buffer of this launch at some contents, and the
  generator register at some state.
-/
import proofs.«108860_j55594056680006_2_alg».proof.Proof.Gen.Kernel.Launch
import proofs.«108860_j55594056680006_2_alg».proof.Proof.Gen.Kernel.Skeleton
import proofs.«108860_j55594056680006_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off the window's array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds the window's block at every point, whether the pipeline fetched it there
    or left it from the point before (its block index then has not moved), for any proof data over `V`'s arrays whose
    body leaves the block in place: the input rows' window, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the weight's window, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and the bias row's window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

/-- The whole [1024, 512] buffer. -/
abbrev r0X : Rect S1024x512 := Rect.unit (s := S1024x512) ![0, 0] S1024x512.size inb_S1024x512_S1024x512_0_0
/-- The whole [512, 1536] buffer. -/
abbrev r0W : Rect S512x1536 := Rect.unit (s := S512x1536) ![0, 0] S512x1536.size inb_S512x1536_S512x1536_0_0
/-- The whole [1, 1536] buffer. -/
abbrev r0B : Rect S1x1536 := Rect.unit (s := S1x1536) ![0, 0] S1x1536.size inb_S1x1536_S1x1536_0_0

/-- The query window's buffer after the body: its one store, of columns 0–511 of the projected block. -/
def out0_3 (x0 : Vec F S1024x512 .f32) (x1 : Vec F S512x1536 .bf16) (x2 : Vec F S1x1536 .f32) : Vec F S1024x512 .bf16 :=
  View.canon [⟨r0X, k0_pay2 (View.ld x0 r0X) (View.ld x1 r0W) (View.ld x2 r0B)⟩]
/-- The key window's buffer after the body: columns 512–1023. -/
def out0_4 (x0 : Vec F S1024x512 .f32) (x1 : Vec F S512x1536 .bf16) (x2 : Vec F S1x1536 .f32) : Vec F S1024x512 .bf16 :=
  View.canon [⟨r0X, k0_pay3 (View.ld x0 r0X) (View.ld x1 r0W) (View.ld x2 r0B)⟩]
/-- The value window's buffer after the body: columns 1024–1535. -/
def out0_5 (x0 : Vec F S1024x512 .f32) (x1 : Vec F S512x1536 .bf16) (x2 : Vec F S1x1536 .f32) : Vec F S1024x512 .bf16 :=
  View.canon [⟨r0X, k0_pay4 (View.ld x0 r0X) (View.ld x1 r0W) (View.ld x2 r0B)⟩]

/-- One whole-buffer store covers the buffer. -/
theorem cover0_out (p0 : Vec F S1024x512 .bf16) (y : S1024x512.Idx) :
    ∃ pc ∈ ([⟨r0X, p0⟩] : List (View.Piece (Elt F) S1024x512 .bf16)), y ∈ pc.1.set :=
  View.cover_of_tiled [⟨r0X, p0⟩] S1024x512.size (by rfl) y

/-! ## The body's triple -/

set_option maxHeartbeats 2000000 in
/-- The body on whole staging memrefs, the inputs' at contents `x0 x1 x2` and the outputs' at anything, runs to the
    continuation holding the inputs as they were and each output at its column block of the projected block. -/
theorem sound_kernel0 (c : Dev nD) (E : Set ℕ) (i : grid0.Coords)
    (arg1 : Memref sig .tc .vmem S1024x512 .f32) (harg1 : arg1.IsWhole) (arg2 : Memref sig .tc .vmem S512x1536 .bf16) (harg2 : arg2.IsWhole)
    (arg3 : Memref sig .tc .vmem S1x1536 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (x0 : Vec F S1024x512 .f32) (x1 : Vec F S512x1536 .bf16) (x2 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-! ## The launch's proof data -/

/-- The proof data of the projection launch on core `c`: the arrays as the launch finds them; after the body at point
    `t` each input's buffer still at its block and the three outputs' at the three column blocks of the projected
    block; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The class invariant is the launch's invariant before the first point and after the last. -/
theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Hand

end
-- ==== Proof.B.R1.lean ====
/-
  The key launch of the program (its second kernel call): the call's half of the frame.

  The call runs on a grid of 8 × 4 points.  At each point the pipeline hands the body a [1024, 2048] block of the
  left operand and a [2048, 512] block of the right operand; the body keeps a [1024, 512] accumulator of its own
  between points — zeroed at the first of every four points, added to at every point, copied into the result block at
  the last of every four, where (and only where) the pipeline writes the result block back.  This module states, at
  any float type and at any contents of the buffers when the call is entered: the body's triple in its three control
  cases, what the accumulator holds after each point (by recursion on the point), the invariant carried between
  points (the accumulator at what the point before left), the call's proof data, and the body obligation.
-/
import proofs.«108860_j55594056680006_2_alg».proof.Proof.Gen.Kernel.Launch
import proofs.«108860_j55594056680006_2_alg».proof.Proof.Gen.Kernel.Skeleton
import proofs.«108860_j55594056680006_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The key launch (the second kernel call of the program), at the entry contents `V`

The call runs over a grid of 8 × 4 points; point `t` has coordinates `(t / 4, t % 4)`.  At each point the
pipeline hands the body a [1024, 2048] block of the left operand (row block `t / 4`, column block `t % 4`) and
a [2048, 512] block of the right operand (row block `t % 4`).  The body keeps a [1024, 512] accumulator of its
own between points: at `t % 4 = 0` it zeroes it, at every point it adds the product of the two blocks to it,
and at `t % 4 = 3` it copies it into the result block, which the pipeline writes back there and only there.
Everything below is stated at a parameter `V`: the buffer contents when the call is entered. -/

section Region

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- The condition under which the body zeroes its accumulator, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The condition under which the body copies the accumulator into the result block. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The operand windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Where the body does not copy the accumulator out, the result window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it does, the window is live. -/
theorem liveAt1_2 : ∀ t : Fin cfg1.N, cond1_1 (grid1.coords t) → cfg1.idle 2 (grid1.coords t) = false := by decide +kernel

/-- The grid has 32 points, so the predecessor of a position is a point. -/
theorem pred_lt1 {n : ℕ} (hn : n ≤ cfg1.N) : n - 1 < cfg1.N := by
  have hN : cfg1.N = 32 := N_1
  omega

/-! ## The body's triple, case by case -/

/-- The offsets of a whole-buffer access are all zero. -/
theorem zeroOff1 : (![0, 0] : Fin 2 → ℕ) = fun _ => 0 := by
  funext a; fin_cases a <;> rfl

/-- The body's accumulator: a whole scoped buffer of the call's own, passed beside the windows. -/
abbrev scM1 : Memref sig .tc .vmem S1024x512 .f32 := Memref.whole cc1_scratch0

/-- A load of a whole staging buffer through the whole-shape rectangle reads its contents: the left operand's, -/
theorem rdA1 (v : View sig .tc .vmem S1024x2048 .f32) (f : v.ty.Contents (Elt F)) :
    View.readAt (Elt F) v (Rect.unit (s := S1024x2048) ![0, 0] S1024x2048.size inb_S1024x2048_S1024x2048_0_0).toLoadRect f = View.read (Elt F) v f :=
  (View.readAt_eq_ld _ _ _).trans (View.ld_unit_zero zeroOff1 _ _)
/-- the right operand's, -/
theorem rdK1 (v : View sig .tc .vmem S2048x512 .bf16) (f : v.ty.Contents (Elt F)) :
    View.readAt (Elt F) v (Rect.unit (s := S2048x512) ![0, 0] S2048x512.size inb_S2048x512_S2048x512_0_0).toLoadRect f = View.read (Elt F) v f :=
  (View.readAt_eq_ld _ _ _).trans (View.ld_unit_zero zeroOff1 _ _)
/-- the accumulator's and the result block's. -/
theorem rdO1 (v : View sig .tc .vmem S1024x512 .f32) (f : v.ty.Contents (Elt F)) :
    View.readAt (Elt F) v (Rect.unit (s := S1024x512) ![0, 0] S1024x512.size inb_S1024x512_S1024x512_0_0).toLoadRect f = View.read (Elt F) v f :=
  (View.readAt_eq_ld _ _ _).trans (View.ld_unit_zero zeroOff1 _ _)

set_option maxHeartbeats 1000000 in
/-- At a point that zeroes the accumulator and does not copy it out: from the operand blocks `x0`, `x1` and the
    accumulator at anything, the body leaves the operands as they were and the accumulator at the step from zero. -/
theorem sound_kernel1_A (c : Dev nD) (E : Set ℕ) (i : grid1.Coords)
    (arg2 : Memref sig .tc .vmem S1024x2048 .f32) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : cond1_0 i) (hc1 : ¬cond1_1 i)
    (x0 : Vec F S1024x2048 .f32) (x1 : Vec F S2048x512 .bf16) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
              ∗ owns (c : Thread nD τ) arg5 fullShare (k1_pay2 x0 (k1_pay1 (F := F)) x1)) -∗ K ⟨⟩))
      ⊢ wp frame (wpE (defs₀ (F := F)) Variants.none c none) E (cc1__ak_kernel i arg2 harg2 arg3 harg3 arg4 harg4 arg5 harg5) K := by
  simp only [cc1__ak_kernel_eq_skeleton]; unfold cc1__ak_kernel_skel
  unfold owns
  iintro ⟨⟨%f0, %hf0, H0⟩, ⟨%f1, %hf1, H1⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  unfold sound_kernel1_A.sl.v5 sound_kernel1_A.sl.H5_1
  refine (View.read_writes_eq_canon _ _ _ (fun y => ⟨_, List.mem_cons_self, View.mem_set_unit_zero zeroOff1 inb_S1024x512_S1024x512_0_0 y⟩)).trans ?_
  refine (View.canon_cons_unit_zero zeroOff1 inb_S1024x512_S1024x512_0_0 _ _).trans ?_
  rw [View.readCov_unit_zero _ zeroOff1 inb_S1024x512_S1024x512_0_0, rdA1, rdK1]

set_option maxHeartbeats 1000000 in
/-- At a point that neither zeroes the accumulator nor copies it out: from the operand blocks and the accumulator at
    `xs`, the body leaves the operands as they were and the accumulator at the step from `xs`. -/
theorem sound_kernel1_B (c : Dev nD) (E : Set ℕ) (i : grid1.Coords)
    (arg2 : Memref sig .tc .vmem S1024x2048 .f32) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬cond1_0 i) (hc1 : ¬cond1_1 i)
    (x0 : Vec F S1024x2048 .f32) (x1 : Vec F S2048x512 .bf16) (xs : Vec F S1024x512 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
              ∗ owns (c : Thread nD τ) arg5 fullShare (k1_pay2 x0 xs x1)) -∗ K ⟨⟩))
      ⊢ wp frame (wpE (defs₀ (F := F)) Variants.none c none) E (cc1__ak_kernel i arg2 harg2 arg3 harg3 arg4 harg4 arg5 harg5) K := by
  simp only [cc1__ak_kernel_eq_skeleton]; unfold cc1__ak_kernel_skel
  unfold owns
  iintro ⟨⟨%f0, %hf0, H0⟩, ⟨%f1, %hf1, H1⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  refine (View.read_writes_eq_canon _ _ _ (fun y => ⟨_, List.mem_singleton_self _, View.mem_set_unit_zero zeroOff1 inb_S1024x512_S1024x512_0_0 y⟩)).trans ?_
  refine (View.canon_unit_zero zeroOff1 inb_S1024x512_S1024x512_0_0 _).trans ?_
  rw [rdA1, rdK1, rdO1]

set_option maxHeartbeats 1000000 in
/-- At a point that does not zero the accumulator and copies it out: from the operand blocks, the accumulator at
    `xs` and the result block's buffer at anything, the body leaves the operands as they were and both the
    accumulator and the result block's buffer at the step from `xs`. -/
theorem sound_kernel1_C (c : Dev nD) (E : Set ℕ) (i : grid1.Coords)
    (arg2 : Memref sig .tc .vmem S1024x2048 .f32) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬cond1_0 i) (hc1 : cond1_1 i)
    (x0 : Vec F S1024x2048 .f32) (x1 : Vec F S2048x512 .bf16) (xs : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
              ∗ owns (c : Thread nD τ) arg4 fullShare (k1_pay2 x0 xs x1)
              ∗ owns (c : Thread nD τ) arg5 fullShare (k1_pay2 x0 xs x1)) -∗ K ⟨⟩))
      ⊢ wp frame (wpE (defs₀ (F := F)) Variants.none c none) E (cc1__ak_kernel i arg2 harg2 arg3 harg3 arg4 harg4 arg5 harg5) K := by
  simp only [cc1__ak_kernel_eq_skeleton]; unfold cc1__ak_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    unfold sound_kernel1_C.sl.v16 sound_kernel1_C.sl.H5_1
    refine (View.read_writes_eq_canon _ _ _ (fun y => ⟨_, List.mem_singleton_self _, View.mem_set_unit_zero zeroOff1 inb_S1024x512_S1024x512_0_0 y⟩)).trans ?_
    refine (View.canon_unit_zero zeroOff1 inb_S1024x512_S1024x512_0_0 _).trans ?_
    rw [View.readCov_unit_zero _ zeroOff1 inb_S1024x512_S1024x512_0_0, rdA1, rdK1, rdO1]
  iexists _; isplitr
  swap; · iexact H5
  ipureintro
  unfold sound_kernel1_C.sl.H5_1
  refine (View.read_writes_eq_canon _ _ _ (fun y => ⟨_, List.mem_singleton_self _, View.mem_set_unit_zero zeroOff1 inb_S1024x512_S1024x512_0_0 y⟩)).trans ?_
  refine (View.canon_unit_zero zeroOff1 inb_S1024x512_S1024x512_0_0 _).trans ?_
  rw [rdA1, rdK1, rdO1]

/-! ## What the accumulator holds after each point -/

/-- The accumulator after the body at position `n`: at a position ≡ 0 (mod 4) the step from zero on that point's
    blocks, elsewhere the step from what the point before left. -/
def acc1 (c : Dev nD) : (n : ℕ) → n < cfg1.N → Vec F S1024x512 .f32
  | 0, hn => k1_pay2 (iblk1 V c 0 ⟨0, hn⟩) (k1_pay1 (F := F)) (iblk1 V c 1 ⟨0, hn⟩)
  | n + 1, hn =>
    if (n + 1) % 4 = 0 then k1_pay2 (iblk1 V c 0 ⟨n + 1, hn⟩) (k1_pay1 (F := F)) (iblk1 V c 1 ⟨n + 1, hn⟩)
    else k1_pay2 (iblk1 V c 0 ⟨n + 1, hn⟩) (acc1 c n (Nat.lt_of_succ_lt hn)) (iblk1 V c 1 ⟨n + 1, hn⟩)

/-- At a point ≡ 0 (mod 4): the step from zero. -/
theorem acc1_reset (c : Dev nD) (t : Fin cfg1.N) (h0 : t.val % 4 = 0) :
    acc1 V c t.val t.isLt = k1_pay2 (iblk1 V c 0 t) (k1_pay1 (F := F)) (iblk1 V c 1 t) := by
  obtain ⟨n, hn⟩ := t
  cases n with
  | zero => rfl
  | succ n => exact if_pos h0

/-- At any other point: the step from what the point before left. -/
theorem acc1_step (c : Dev nD) (t : Fin cfg1.N) (h0 : ¬t.val % 4 = 0) :
    acc1 V c t.val t.isLt = k1_pay2 (iblk1 V c 0 t) (acc1 V c (t.val - 1) (pred_lt1 (Nat.le_of_lt t.isLt))) (iblk1 V c 1 t) := by
  obtain ⟨n, hn⟩ := t
  cases n with
  | zero => exact absurd (Nat.zero_mod _) h0
  | succ n => exact if_neg h0

/-! ## The invariant between points -/

/-- Before position `n`: the accumulator at some contents, which at a position not ≡ 0 (mod 4) are what the point
    before left; every other scoped buffer of the core that is no staging buffer of this call at some contents; the
    generator register at some state. -/
def PhiS1 (c : Dev nD) (n : ℕ) (hn : n ≤ cfg1.N) : sProp 𝕄 :=
  iprop(((∃ d, ⌜n % 4 ≠ 0 → d = acc1 V c (n - 1) (pred_lt1 hn)⌝ ∗ owns (c : Thread nD τ) scM1 fullShare d)
      ∗ Pipeline.scopedRestBut (Ix := Unit) (Name := ℕ) (U := UR sig nD τ) (Lvl := ℕ) (Val := Elt F) spec1 c [cc1_scratch0])
    ∗ (∃ r, prngReg c r))

/-- After point `n`. -/
theorem PhiS1_succ (c : Dev nD) (n : ℕ) (hn : n < cfg1.N) :
    PhiS1 V c (n + 1) hn = iprop(((∃ d, ⌜(n + 1) % 4 ≠ 0 → d = acc1 V c n hn⌝ ∗ owns (c : Thread nD τ) scM1 fullShare d)
      ∗ Pipeline.scopedRestBut (Ix := Unit) (Name := ℕ) (U := UR sig nD τ) (Lvl := ℕ) (Val := Elt F) spec1 c [cc1_scratch0])
    ∗ (∃ r, prngReg c r)) := rfl

/-- What the launch hands the call, with the accumulator split out of the scoped rest. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA
  rw [Pipeline.scopedRest_split_of_list spec1 c [cc1_scratch0] (by decide) (by decide)]
  simp only [scM1, owns_whole, bigSepL_singleton]; try rfl

/-! ## The call's proof data -/

/-- The proof data of the call on core `c`: the arrays as the call finds them; after the body at point `t` each
    operand's buffer at its block and the result block's buffer at the accumulator's contents there (consulted only
    at the points ≡ 3 (mod 4), where the body copies the accumulator out); the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each operand's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant at a point's start and end, restated at the position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiA1_eq]
  unfold PhiS1
  iintro ⟨⟨⟨%d, HS⟩, HR⟩, Hg⟩
  isplitl [HS HR]
  · isplitl [HS]
    · iexists d; isplitr; · ipureintro; intro h; exact absurd (Nat.zero_mod 4) h
      iexact HS
    iexact HR
  iexact Hg

/-- After the last point the invariant gives it back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  unfold PhiS1
  iintro ⟨⟨⟨%d, -, HS⟩, HR⟩, Hg⟩
  isplitl [HS HR]
  · isplitl [HS]
    · iexists d; iexact HS
    iexact HR
  iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The operands' buffers hold their blocks; the position modulo 4 says which of the three
    cases the point is in. The invariant hands the body the accumulator — at anything where the body zeroes it first,
    elsewhere at what the point before left — and takes it back at this point's contents. Where the body does not copy
    the accumulator out, the result block's buffer is handed back untouched (the window is idle there and not written
    back); where it does, the buffer ends at the accumulator's contents. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, PhiS1_castSucc]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  unfold PhiS1
  by_cases h0 : t.val % 4 = 0
  · -- the accumulator is zeroed first; the result block's buffer is left alone
    have h1 : ¬t.val % 4 = 3 := by omega
    have hn1 : ¬cond1_1 (grid1.coords t) := fun h => h1 ((hcond1_1 t).mp h)
    rw [Dat.leavesExact_idle (dat1 V c) 2 t (idleAt1_2 t hn1) (noFlush1_2 t hn1)]
    iintro ⟨⟨⟨⟨%d, -, HS⟩, HR⟩, Hg⟩, Ho, ⟨%d0, H0⟩, ⟨%d1, H1⟩, H2⟩
    iapply (sound_kernel1_A c Set.univ (grid1.coords t) _ _ _ _ _ _ _ _ ((hcond1_0 t).mpr h0) hn1 (iblk1 V c 0 t) (iblk1 V c 1 t) _)
    isplitl [H0]; · iexact H0
    isplitl [H1]; · iexact H1
    isplitl [HS]; · iexists _; iexact HS
    iintro ⟨H0, H1, HS⟩
    isplitl [HS HR Hg]
    · isplitl [HS HR]
      · isplitl [HS]
        · iexists _; isplitr
          swap; · iexact HS
          ipureintro; intro _; exact (acc1_reset V c t h0).symm
        iexact HR
      iexact Hg
    isplitl [Ho]; · iexact Ho
    isplitl [H0]; · iexact H0
    isplitl [H1]; · iexact H1
    iexact H2
  · by_cases h1 : t.val % 4 = 3
    · -- the accumulator is stepped and copied into the result block's buffer
      have hc1 : cond1_1 (grid1.coords t) := (hcond1_1 t).mpr h1
      have hn0 : ¬cond1_0 (grid1.coords t) := fun h => h0 ((hcond1_0 t).mp h)
      rw [show (dat1 V c).leavesExact 2 t = owns (c : Thread nD τ) (st1_2 t) fullShare ((dat1 V c).after 2 t) from by
        unfold Dat.leavesExact; rw [liveAt1_2 t hc1], after1_2]
      iintro ⟨⟨⟨⟨%d, %hd, HS⟩, HR⟩, Hg⟩, Ho, ⟨%d0, H0⟩, ⟨%d1, H1⟩, ⟨%d2, H2⟩⟩
      obtain rfl := hd h0
      iapply (sound_kernel1_C c Set.univ (grid1.coords t) _ _ _ _ _ _ _ _ hn0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      rw [acc1_step V c t h0]
      isplitl [HS HR Hg]
      · isplitl [HS HR]
        · isplitl [HS]
          · iexists _; isplitr
            swap; · iexact HS
            ipureintro; intro _; rfl
          iexact HR
        iexact Hg
      isplitl [Ho]; · iexact Ho
      isplitl [H0]; · iexact H0
      isplitl [H1]; · iexact H1
      iexact H2
    · -- the accumulator is stepped; the result block's buffer is left alone
      have hn1 : ¬cond1_1 (grid1.coords t) := fun h => h1 ((hcond1_1 t).mp h)
      have hn0 : ¬cond1_0 (grid1.coords t) := fun h => h0 ((hcond1_0 t).mp h)
      rw [Dat.leavesExact_idle (dat1 V c) 2 t (idleAt1_2 t hn1) (noFlush1_2 t hn1)]
      iintro ⟨⟨⟨⟨%d, %hd, HS⟩, HR⟩, Hg⟩, Ho, ⟨%d0, H0⟩, ⟨%d1, H1⟩, H2⟩
      obtain rfl := hd h0
      iapply (sound_kernel1_B c Set.univ (grid1.coords t) _ _ _ _ _ _ _ _ hn0 hn1 (iblk1 V c 0 t) (iblk1 V c 1 t) _ _)
      isplitl [H0]; · iexact H0
      isplitl [H1]; · iexact H1
      isplitl [HS]; · iexact HS
      iintro ⟨H0, H1, HS⟩
      rw [acc1_step V c t h0]
      isplitl [HS HR Hg]
      · isplitl [HS HR]
        · isplitl [HS]
          · iexists _; isplitr
            swap; · iexact HS
            ipureintro; intro _; rfl
          iexact HR
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.B.R2.lean ====
/- Region 2 of @main (pallas_call 2, the attention kernel on a grid of 128 points), at the buffer contents V the
   region is entered with: each window's block at a point, what the body leaves in its two output buffers, the
   body's triple, the pipeline's proof data and the body obligation at every point. -/
import proofs.«108860_j55594056680006_2_alg».proof.Proof.Gen.Kernel.Launch
import proofs.«108860_j55594056680006_2_alg».proof.Proof.Gen.Kernel.Skeleton
import proofs.«108860_j55594056680006_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved since the point before, and the body leaves the block in place. Window 0
    (the query rows) is fetched at every point; windows 1 to 4 (keys, values, output weights, output bias) are whole
    arrays fetched once, their block index constant. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev rQ : Rect S64x512 := Rect.unit (s := S64x512) ![0, 0] S64x512.size inb_S64x512_S64x512_0_0
abbrev rK : Rect S8192x512 := Rect.unit (s := S8192x512) ![0, 0] S8192x512.size inb_S8192x512_S8192x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rP : Rect S64x8192 := Rect.unit (s := S64x8192) ![0, 0] S64x8192.size inb_S64x8192_S64x8192_0_0

/-! ## What the body leaves in each output window's buffer -/

/-- The attention-weights buffer (window 5) after the body: one whole-buffer store of the row softmax of the scaled
    query rows against the key rows. -/
def out2_5 (x0 : Vec F S64x512 .bf16) (x1 : Vec F S8192x512 .f32) : Vec F S64x8192 .f32 :=
  View.canon [⟨rP, k2_pay1 (View.ld x0 rQ) (View.ld x1 rK)⟩]

/-- The output buffer (window 6) after the body: one whole-buffer store of the weights times the values, projected
    and biased. -/
def out2_6 (x0 : Vec F S64x512 .bf16) (x1 : Vec F S8192x512 .f32) (x2 : Vec F S8192x512 .bf16) (x3 : Vec F S512x512 .bf16) (x4 : Vec F S1x512 .f32) : Vec F S64x512 .f32 :=
  View.canon [⟨rQ, k2_pay2 (View.ld x0 rQ) (View.ld x1 rK) (View.ld x2 rK) (View.ld x3 rW) (View.ld x4 rB)⟩]

/-- The one store of each output tiles its buffer, so it covers it. -/
theorem cover2_5 (p0 : Vec F S64x8192 .f32) (y : S64x8192.Idx) :
    ∃ pc ∈ ([⟨rP, p0⟩] : List (View.Piece (Elt F) S64x8192 .f32)), y ∈ pc.1.set :=
  View.cover_of_tiled [⟨rP, p0⟩] S64x8192.size (by rfl) y
theorem cover2_6 (p0 : Vec F S64x512 .f32) (y : S64x512.Idx) :
    ∃ pc ∈ ([⟨rQ, p0⟩] : List (View.Piece (Elt F) S64x512 .f32)), y ∈ pc.1.set :=
  View.cover_of_tiled [⟨rQ, p0⟩] S64x512.size (by rfl) y

/-! ## The body's triple -/

set_option maxHeartbeats 4000000 in
/-- The kernel body on whole staging memrefs, the five inputs' at read contents and the two outputs' at anything, runs
    to the continuation holding the inputs' as they were and each output's at what its one store leaves. The body
    loads each output buffer before storing it; neither loaded value is read. -/
theorem sound_kernel2 (c : Dev nD) (E : Set ℕ) (i : grid2.Coords)
    (arg1 : Memref sig .tc .vmem S64x512 .bf16) (harg1 : arg1.IsWhole) (arg2 : Memref sig .tc .vmem S8192x512 .f32) (harg2 : arg2.IsWhole)
    (arg3 : Memref sig .tc .vmem S8192x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S64x8192 .f32) (harg6 : arg6.IsWhole)
    (arg7 : Memref sig .tc .vmem S64x512 .f32) (harg7 : arg7.IsWhole)
    (x0 : Vec F S64x512 .bf16) (x1 : Vec F S8192x512 .f32) (x2 : Vec F S8192x512 .bf16) (x3 : Vec F S512x512 .bf16) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1) ∗ owns (c : Thread nD τ) arg7 fullShare (out2_6 x0 x1 x2 x3 x4)) -∗ K ⟨⟩))
      ⊢ wp frame (wpE (defs₀ (F := F)) Variants.none c none) E (cc2__attn_kernel i arg1 harg1 arg2 harg2 arg3 harg3 arg4 harg4 arg5 harg5 arg6 harg6 arg7 harg7) K := by
  simp only [cc2__attn_kernel_eq_skeleton]; unfold cc2__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The pipeline's proof data -/

/-- The proof data of this pipeline on core c: the arrays as the region finds them; after the body at point t each
    input's buffer at its block and each output's at what the body's store leaves, as a function of the input blocks;
    the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- The invariant is the same at the first and at the last point. -/
theorem hin2 (c : Dev nD) : Pipeline.ΦA spec2 c ⊢ (dat2 V c).Φ 0 := .rfl
theorem hout2 (c : Dev nD) : (dat2 V c).Φ (Fin.last cfg2.N) ⊢ Pipeline.ΦA spec2 c := .rfl

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and the
    core's owed tokens pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.B.Run.lean ====
/-
  The kernel program's run, at any float instance: @main as five segments — two host operations, the projection
  launch, the key launch, two host operations, the attention launch — over the thread state "every unscoped buffer
  of the core at the boundary's contents, the generator register at some state, nothing owed".

  The buffers' contents at the six boundaries are a fold from the launch memory: a host stretch applies its
  operations; a launch leaves its input arrays as entered and each output array with every write-back folded in, and
  every other buffer as entered. The run's post reads the two results and the six arguments off the last boundary.
-/
import proofs.«108860_j55594056680006_2_alg».proof.Proof.B.R0
import proofs.«108860_j55594056680006_2_alg».proof.Proof.B.R1
import proofs.«108860_j55594056680006_2_alg».proof.Proof.B.R2
import proofs.«108860_j55594056680006_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first two host operations (the weight rounded to bf16, the bias kept as a row). -/
abbrev W1 : Dev nD → Valuation τ sig (Elt F) := fun c => StableHlo.after hostOps0 (W0 m ρ c)
/-- The same read at the TensorCore's references: what the projection launch is entered from. -/
abbrev V1 : (c : Dev nD) → (b : Ref sig .tc) → Buf (Elt F) ((c : Thread nD τ).loc b) := fun c b => W1 m ρ c b

/-- At launch 0's exit: its arrays at what the pipeline leaves (an input as entered, an output with every
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At launch 1's exit: its arrays at what the pipeline leaves (an input as entered, an output with every
    write-back folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second pair of host operations (the output weight rounded to bf16, the output bias kept as a row). -/
abbrev W4 : Dev nD → Valuation τ sig (Elt F) := fun c => StableHlo.after hostOps2 (W3 m ρ c)
/-- The same read at the TensorCore's references: what the attention launch is entered from. -/
abbrev V4 : (c : Dev nD) → (b : Ref sig .tc) → Buf (Elt F) ((c : Thread nD τ).loc b) := fun c b => W4 m ρ c b

/-- At launch 2's exit: its arrays at what the pipeline leaves (an input as entered, an output with every
    write-back folded in), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched -/

/-- `main_arg0` ends as launched: no host operation writes it and no launch changes it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl

/-- `main_arg1` ends as launched: no host operation writes it and no launch changes it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_writes_sub hostOps2 _ hostOps2_writes (r := main_arg1) (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-- `main_arg2` ends as launched: no host operation writes it and no launch changes it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

/-- `main_arg3` ends as launched: no host operation writes it and no launch changes it. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_writes_sub hostOps2 _ hostOps2_writes (r := main_arg3) (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-- `main_arg4` ends as launched: no host operation writes it and no launch changes it. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_writes_sub hostOps2 _ hostOps2_writes (r := main_arg4) (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

/-- `main_arg5` ends as launched: no host operation writes it and no launch changes it. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_writes_sub hostOps2 _ hostOps2_writes (r := main_arg5) (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

/-! ## The proof data family and the thread state -/

/-- No launch has a prefetched table. -/
abbrev adm : (p : Fin 3) → (pcfgs (F := F) p).Adm := fun p => (cfgs p).toPCfg_adm
/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- The projection launch over the thread state: its arrays split out of the unscoped buffers at entry and put back at the exit contents; the generator register into the launch's invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ BI.emp
        ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The key launch over the thread state, in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch over the thread state, left at the last boundary's contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1
        ∗ Pipeline.scopedRest (Pipeline.pin (pcfgs (F := F)) adm 2).spec c) ⊢ (Pipeline.ΦA spec2 c : sProp 𝕄) := by
      unfold Pipeline.ΦA
      iintro ⟨Hp, -, Hr⟩
      isplitl [Hr]; · iexact Hr
      iexact Hp
    exact h.trans (hin2 (V4 m ρ) c)
  hout c := by
    rw [Pipeline.ownSems0_none]
    have h : (Pipeline.ΦA spec2 c : sProp 𝕄) ⊢ iprop((∃ r, prngReg c r) ∗ BI.emp
        ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (V4 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run with its post read at the program's results and arguments: each result array at what the attention launch's
    write-backs leave, each argument as launched. -/
theorem run : θ_run defs (onTc (τ := τ) (main (F := F))) ⟨m, fun _ => 0, ρ⟩ (fun r => ∀ c : Dev nD,
      r.2.mem ((c.tc : Thread nD τ).loc main_v6_1) = W5 m ρ c (Proc.devRef .tc main_v6_1)
      ∧ r.2.mem ((c.tc : Thread nD τ).loc main_v6_0) = W5 m ρ c (Proc.devRef .tc main_v6_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v6_1 (by decide)), h c _ (mem_uc main_v6_0 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.Kernel.Hand

end
-- ==== Proof.I.R0.lean ====
/-
  The projection launch (the first of the program's three), at any float instance and at a parameter `V`: the
  contents of the core's unscoped buffers when the launch is entered.

  The grid has 8 points. At point `t` the body reads a block of 1024 rows of the [8192, 512] input, the whole
  [512, 1536] weight and the [1, 1536] bias row, forms the [1024, 1536] block of x·W + b, and stores its three
  column blocks of width 512 whole into the three output windows' buffers (the loads of those buffers that precede
  the stores read whatever the buffers hold and are not used). Nothing is kept between points, so the launch's
  invariant is the class one: the scoped buffers that are no staging buffer of this launch at some contents, and the
  generator register at some state.
-/
import proofs.«108860_j55594056680006_2_alg».proof.Proof.Gen.KernelIdeal.Launch
import proofs.«108860_j55594056680006_2_alg».proof.Proof.Gen.KernelIdeal.Skeleton
import proofs.«108860_j55594056680006_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off the window's array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds the window's block at every point, whether the pipeline fetched it there
    or left it from the point before (its block index then has not moved), for any proof data over `V`'s arrays whose
    body leaves the block in place: the input rows' window, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the weight's window, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and the bias row's window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

/-- The whole [1024, 512] buffer. -/
abbrev r0X : Rect S1024x512 := Rect.unit (s := S1024x512) ![0, 0] S1024x512.size inb_S1024x512_S1024x512_0_0
/-- The whole [512, 1536] buffer. -/
abbrev r0W : Rect S512x1536 := Rect.unit (s := S512x1536) ![0, 0] S512x1536.size inb_S512x1536_S512x1536_0_0
/-- The whole [1, 1536] buffer. -/
abbrev r0B : Rect S1x1536 := Rect.unit (s := S1x1536) ![0, 0] S1x1536.size inb_S1x1536_S1x1536_0_0

/-- The query window's buffer after the body: its one store, of columns 0–511 of the projected block. -/
def out0_3 (x0 : Vec F S1024x512 .f32) (x1 : Vec F S512x1536 .bf16) (x2 : Vec F S1x1536 .f32) : Vec F S1024x512 .bf16 :=
  View.canon [⟨r0X, k0_pay2 (View.ld x0 r0X) (View.ld x1 r0W) (View.ld x2 r0B)⟩]
/-- The key window's buffer after the body: columns 512–1023. -/
def out0_4 (x0 : Vec F S1024x512 .f32) (x1 : Vec F S512x1536 .bf16) (x2 : Vec F S1x1536 .f32) : Vec F S1024x512 .bf16 :=
  View.canon [⟨r0X, k0_pay3 (View.ld x0 r0X) (View.ld x1 r0W) (View.ld x2 r0B)⟩]
/-- The value window's buffer after the body: columns 1024–1535. -/
def out0_5 (x0 : Vec F S1024x512 .f32) (x1 : Vec F S512x1536 .bf16) (x2 : Vec F S1x1536 .f32) : Vec F S1024x512 .bf16 :=
  View.canon [⟨r0X, k0_pay4 (View.ld x0 r0X) (View.ld x1 r0W) (View.ld x2 r0B)⟩]

/-- One whole-buffer store covers the buffer. -/
theorem cover0_out (p0 : Vec F S1024x512 .bf16) (y : S1024x512.Idx) :
    ∃ pc ∈ ([⟨r0X, p0⟩] : List (View.Piece (Elt F) S1024x512 .bf16)), y ∈ pc.1.set :=
  View.cover_of_tiled [⟨r0X, p0⟩] S1024x512.size (by rfl) y

/-! ## The body's triple -/

set_option maxHeartbeats 2000000 in
/-- The body on whole staging memrefs, the inputs' at contents `x0 x1 x2` and the outputs' at anything, runs to the
    continuation holding the inputs as they were and each output at its column block of the projected block. -/
theorem sound_kernel0 (c : Dev nD) (E : Set ℕ) (i : grid0.Coords)
    (arg1 : Memref sig .tc .vmem S1024x512 .f32) (harg1 : arg1.IsWhole) (arg2 : Memref sig .tc .vmem S512x1536 .bf16) (harg2 : arg2.IsWhole)
    (arg3 : Memref sig .tc .vmem S1x1536 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x512 .bf16) (harg6 : arg6.IsWhole)
    (x0 : Vec F S1024x512 .f32) (x1 : Vec F S512x1536 .bf16) (x2 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-! ## The launch's proof data -/

/-- The proof data of the projection launch on core `c`: the arrays as the launch finds them; after the body at point
    `t` each input's buffer still at its block and the three outputs' at the three column blocks of the projected
    block; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The class invariant is the launch's invariant before the first point and after the last. -/
theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Hand

end
-- ==== Proof.I.R1.lean ====
/-
  The key launch of the program (its second kernel call): the call's half of the frame.

  The call runs on a grid of 8 × 4 points.  At each point the pipeline hands the body a [1024, 2048] block of the
  left operand and a [2048, 512] block of the right operand; the body keeps a [1024, 512] accumulator of its own
  between points — zeroed at the first of every four points, added to at every point, copied into the result block at
  the last of every four, where (and only where) the pipeline writes the result block back.  This module states, at
  any float type and at any contents of the buffers when the call is entered: the body's triple in its three control
  cases, what the accumulator holds after each point (by recursion on the point), the invariant carried between
  points (the accumulator at what the point before left), the call's proof data, and the body obligation.
-/
import proofs.«108860_j55594056680006_2_alg».proof.Proof.Gen.KernelIdeal.Launch
import proofs.«108860_j55594056680006_2_alg».proof.Proof.Gen.KernelIdeal.Skeleton
import proofs.«108860_j55594056680006_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The key launch (the second kernel call of the program), at the entry contents `V`

The call runs over a grid of 8 × 4 points; point `t` has coordinates `(t / 4, t % 4)`.  At each point the
pipeline hands the body a [1024, 2048] block of the left operand (row block `t / 4`, column block `t % 4`) and
a [2048, 512] block of the right operand (row block `t % 4`).  The body keeps a [1024, 512] accumulator of its
own between points: at `t % 4 = 0` it zeroes it, at every point it adds the product of the two blocks to it,
and at `t % 4 = 3` it copies it into the result block, which the pipeline writes back there and only there.
Everything below is stated at a parameter `V`: the buffer contents when the call is entered. -/

section Region

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- The condition under which the body zeroes its accumulator, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The condition under which the body copies the accumulator into the result block. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The operand windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Where the body does not copy the accumulator out, the result window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it does, the window is live. -/
theorem liveAt1_2 : ∀ t : Fin cfg1.N, cond1_1 (grid1.coords t) → cfg1.idle 2 (grid1.coords t) = false := by decide +kernel

/-- The grid has 32 points, so the predecessor of a position is a point. -/
theorem pred_lt1 {n : ℕ} (hn : n ≤ cfg1.N) : n - 1 < cfg1.N := by
  have hN : cfg1.N = 32 := N_1
  omega

/-! ## The body's triple, case by case -/

/-- The offsets of a whole-buffer access are all zero. -/
theorem zeroOff1 : (![0, 0] : Fin 2 → ℕ) = fun _ => 0 := by
  funext a; fin_cases a <;> rfl

/-- The body's accumulator: a whole scoped buffer of the call's own, passed beside the windows. -/
abbrev scM1 : Memref sig .tc .vmem S1024x512 .f32 := Memref.whole cc1_scratch0

/-- A load of a whole staging buffer through the whole-shape rectangle reads its contents: the left operand's, -/
theorem rdA1 (v : View sig .tc .vmem S1024x2048 .f32) (f : v.ty.Contents (Elt F)) :
    View.readAt (Elt F) v (Rect.unit (s := S1024x2048) ![0, 0] S1024x2048.size inb_S1024x2048_S1024x2048_0_0).toLoadRect f = View.read (Elt F) v f :=
  (View.readAt_eq_ld _ _ _).trans (View.ld_unit_zero zeroOff1 _ _)
/-- the right operand's, -/
theorem rdK1 (v : View sig .tc .vmem S2048x512 .bf16) (f : v.ty.Contents (Elt F)) :
    View.readAt (Elt F) v (Rect.unit (s := S2048x512) ![0, 0] S2048x512.size inb_S2048x512_S2048x512_0_0).toLoadRect f = View.read (Elt F) v f :=
  (View.readAt_eq_ld _ _ _).trans (View.ld_unit_zero zeroOff1 _ _)
/-- the accumulator's and the result block's. -/
theorem rdO1 (v : View sig .tc .vmem S1024x512 .f32) (f : v.ty.Contents (Elt F)) :
    View.readAt (Elt F) v (Rect.unit (s := S1024x512) ![0, 0] S1024x512.size inb_S1024x512_S1024x512_0_0).toLoadRect f = View.read (Elt F) v f :=
  (View.readAt_eq_ld _ _ _).trans (View.ld_unit_zero zeroOff1 _ _)

set_option maxHeartbeats 1000000 in
/-- At a point that zeroes the accumulator and does not copy it out: from the operand blocks `x0`, `x1` and the
    accumulator at anything, the body leaves the operands as they were and the accumulator at the step from zero. -/
theorem sound_kernel1_A (c : Dev nD) (E : Set ℕ) (i : grid1.Coords)
    (arg2 : Memref sig .tc .vmem S1024x2048 .f32) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : cond1_0 i) (hc1 : ¬cond1_1 i)
    (x0 : Vec F S1024x2048 .f32) (x1 : Vec F S2048x512 .bf16) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
              ∗ owns (c : Thread nD τ) arg5 fullShare (k1_pay2 x0 (k1_pay1 (F := F)) x1)) -∗ K ⟨⟩))
      ⊢ wp frame (wpE (defs₀ (F := F)) Variants.none c none) E (cc1__ak_kernel i arg2 harg2 arg3 harg3 arg4 harg4 arg5 harg5) K := by
  simp only [cc1__ak_kernel_eq_skeleton]; unfold cc1__ak_kernel_skel
  unfold owns
  iintro ⟨⟨%f0, %hf0, H0⟩, ⟨%f1, %hf1, H1⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  unfold sound_kernel1_A.sl.v5 sound_kernel1_A.sl.H5_1
  refine (View.read_writes_eq_canon _ _ _ (fun y => ⟨_, List.mem_cons_self, View.mem_set_unit_zero zeroOff1 inb_S1024x512_S1024x512_0_0 y⟩)).trans ?_
  refine (View.canon_cons_unit_zero zeroOff1 inb_S1024x512_S1024x512_0_0 _ _).trans ?_
  rw [View.readCov_unit_zero _ zeroOff1 inb_S1024x512_S1024x512_0_0, rdA1, rdK1]

set_option maxHeartbeats 1000000 in
/-- At a point that neither zeroes the accumulator nor copies it out: from the operand blocks and the accumulator at
    `xs`, the body leaves the operands as they were and the accumulator at the step from `xs`. -/
theorem sound_kernel1_B (c : Dev nD) (E : Set ℕ) (i : grid1.Coords)
    (arg2 : Memref sig .tc .vmem S1024x2048 .f32) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬cond1_0 i) (hc1 : ¬cond1_1 i)
    (x0 : Vec F S1024x2048 .f32) (x1 : Vec F S2048x512 .bf16) (xs : Vec F S1024x512 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
              ∗ owns (c : Thread nD τ) arg5 fullShare (k1_pay2 x0 xs x1)) -∗ K ⟨⟩))
      ⊢ wp frame (wpE (defs₀ (F := F)) Variants.none c none) E (cc1__ak_kernel i arg2 harg2 arg3 harg3 arg4 harg4 arg5 harg5) K := by
  simp only [cc1__ak_kernel_eq_skeleton]; unfold cc1__ak_kernel_skel
  unfold owns
  iintro ⟨⟨%f0, %hf0, H0⟩, ⟨%f1, %hf1, H1⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  refine (View.read_writes_eq_canon _ _ _ (fun y => ⟨_, List.mem_singleton_self _, View.mem_set_unit_zero zeroOff1 inb_S1024x512_S1024x512_0_0 y⟩)).trans ?_
  refine (View.canon_unit_zero zeroOff1 inb_S1024x512_S1024x512_0_0 _).trans ?_
  rw [rdA1, rdK1, rdO1]

set_option maxHeartbeats 1000000 in
/-- At a point that does not zero the accumulator and copies it out: from the operand blocks, the accumulator at
    `xs` and the result block's buffer at anything, the body leaves the operands as they were and both the
    accumulator and the result block's buffer at the step from `xs`. -/
theorem sound_kernel1_C (c : Dev nD) (E : Set ℕ) (i : grid1.Coords)
    (arg2 : Memref sig .tc .vmem S1024x2048 .f32) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬cond1_0 i) (hc1 : cond1_1 i)
    (x0 : Vec F S1024x2048 .f32) (x1 : Vec F S2048x512 .bf16) (xs : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
              ∗ owns (c : Thread nD τ) arg4 fullShare (k1_pay2 x0 xs x1)
              ∗ owns (c : Thread nD τ) arg5 fullShare (k1_pay2 x0 xs x1)) -∗ K ⟨⟩))
      ⊢ wp frame (wpE (defs₀ (F := F)) Variants.none c none) E (cc1__ak_kernel i arg2 harg2 arg3 harg3 arg4 harg4 arg5 harg5) K := by
  simp only [cc1__ak_kernel_eq_skeleton]; unfold cc1__ak_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    unfold sound_kernel1_C.sl.v16 sound_kernel1_C.sl.H5_1
    refine (View.read_writes_eq_canon _ _ _ (fun y => ⟨_, List.mem_singleton_self _, View.mem_set_unit_zero zeroOff1 inb_S1024x512_S1024x512_0_0 y⟩)).trans ?_
    refine (View.canon_unit_zero zeroOff1 inb_S1024x512_S1024x512_0_0 _).trans ?_
    rw [View.readCov_unit_zero _ zeroOff1 inb_S1024x512_S1024x512_0_0, rdA1, rdK1, rdO1]
  iexists _; isplitr
  swap; · iexact H5
  ipureintro
  unfold sound_kernel1_C.sl.H5_1
  refine (View.read_writes_eq_canon _ _ _ (fun y => ⟨_, List.mem_singleton_self _, View.mem_set_unit_zero zeroOff1 inb_S1024x512_S1024x512_0_0 y⟩)).trans ?_
  refine (View.canon_unit_zero zeroOff1 inb_S1024x512_S1024x512_0_0 _).trans ?_
  rw [rdA1, rdK1, rdO1]

/-! ## What the accumulator holds after each point -/

/-- The accumulator after the body at position `n`: at a position ≡ 0 (mod 4) the step from zero on that point's
    blocks, elsewhere the step from what the point before left. -/
def acc1 (c : Dev nD) : (n : ℕ) → n < cfg1.N → Vec F S1024x512 .f32
  | 0, hn => k1_pay2 (iblk1 V c 0 ⟨0, hn⟩) (k1_pay1 (F := F)) (iblk1 V c 1 ⟨0, hn⟩)
  | n + 1, hn =>
    if (n + 1) % 4 = 0 then k1_pay2 (iblk1 V c 0 ⟨n + 1, hn⟩) (k1_pay1 (F := F)) (iblk1 V c 1 ⟨n + 1, hn⟩)
    else k1_pay2 (iblk1 V c 0 ⟨n + 1, hn⟩) (acc1 c n (Nat.lt_of_succ_lt hn)) (iblk1 V c 1 ⟨n + 1, hn⟩)

/-- At a point ≡ 0 (mod 4): the step from zero. -/
theorem acc1_reset (c : Dev nD) (t : Fin cfg1.N) (h0 : t.val % 4 = 0) :
    acc1 V c t.val t.isLt = k1_pay2 (iblk1 V c 0 t) (k1_pay1 (F := F)) (iblk1 V c 1 t) := by
  obtain ⟨n, hn⟩ := t
  cases n with
  | zero => rfl
  | succ n => exact if_pos h0

/-- At any other point: the step from what the point before left. -/
theorem acc1_step (c : Dev nD) (t : Fin cfg1.N) (h0 : ¬t.val % 4 = 0) :
    acc1 V c t.val t.isLt = k1_pay2 (iblk1 V c 0 t) (acc1 V c (t.val - 1) (pred_lt1 (Nat.le_of_lt t.isLt))) (iblk1 V c 1 t) := by
  obtain ⟨n, hn⟩ := t
  cases n with
  | zero => exact absurd (Nat.zero_mod _) h0
  | succ n => exact if_neg h0

/-! ## The invariant between points -/

/-- Before position `n`: the accumulator at some contents, which at a position not ≡ 0 (mod 4) are what the point
    before left; every other scoped buffer of the core that is no staging buffer of this call at some contents; the
    generator register at some state. -/
def PhiS1 (c : Dev nD) (n : ℕ) (hn : n ≤ cfg1.N) : sProp 𝕄 :=
  iprop(((∃ d, ⌜n % 4 ≠ 0 → d = acc1 V c (n - 1) (pred_lt1 hn)⌝ ∗ owns (c : Thread nD τ) scM1 fullShare d)
      ∗ Pipeline.scopedRestBut (Ix := Unit) (Name := ℕ) (U := UR sig nD τ) (Lvl := ℕ) (Val := Elt F) spec1 c [cc1_scratch0])
    ∗ (∃ r, prngReg c r))

/-- After point `n`. -/
theorem PhiS1_succ (c : Dev nD) (n : ℕ) (hn : n < cfg1.N) :
    PhiS1 V c (n + 1) hn = iprop(((∃ d, ⌜(n + 1) % 4 ≠ 0 → d = acc1 V c n hn⌝ ∗ owns (c : Thread nD τ) scM1 fullShare d)
      ∗ Pipeline.scopedRestBut (Ix := Unit) (Name := ℕ) (U := UR sig nD τ) (Lvl := ℕ) (Val := Elt F) spec1 c [cc1_scratch0])
    ∗ (∃ r, prngReg c r)) := rfl

/-- What the launch hands the call, with the accumulator split out of the scoped rest. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA
  rw [Pipeline.scopedRest_split_of_list spec1 c [cc1_scratch0] (by decide) (by decide)]
  simp only [scM1, owns_whole, bigSepL_singleton]; try rfl

/-! ## The call's proof data -/

/-- The proof data of the call on core `c`: the arrays as the call finds them; after the body at point `t` each
    operand's buffer at its block and the result block's buffer at the accumulator's contents there (consulted only
    at the points ≡ 3 (mod 4), where the body copies the accumulator out); the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each operand's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant at a point's start and end, restated at the position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiA1_eq]
  unfold PhiS1
  iintro ⟨⟨⟨%d, HS⟩, HR⟩, Hg⟩
  isplitl [HS HR]
  · isplitl [HS]
    · iexists d; isplitr; · ipureintro; intro h; exact absurd (Nat.zero_mod 4) h
      iexact HS
    iexact HR
  iexact Hg

/-- After the last point the invariant gives it back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  unfold PhiS1
  iintro ⟨⟨⟨%d, -, HS⟩, HR⟩, Hg⟩
  isplitl [HS HR]
  · isplitl [HS]
    · iexists d; iexact HS
    iexact HR
  iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The operands' buffers hold their blocks; the position modulo 4 says which of the three
    cases the point is in. The invariant hands the body the accumulator — at anything where the body zeroes it first,
    elsewhere at what the point before left — and takes it back at this point's contents. Where the body does not copy
    the accumulator out, the result block's buffer is handed back untouched (the window is idle there and not written
    back); where it does, the buffer ends at the accumulator's contents. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, PhiS1_castSucc]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  unfold PhiS1
  by_cases h0 : t.val % 4 = 0
  · -- the accumulator is zeroed first; the result block's buffer is left alone
    have h1 : ¬t.val % 4 = 3 := by omega
    have hn1 : ¬cond1_1 (grid1.coords t) := fun h => h1 ((hcond1_1 t).mp h)
    rw [Dat.leavesExact_idle (dat1 V c) 2 t (idleAt1_2 t hn1) (noFlush1_2 t hn1)]
    iintro ⟨⟨⟨⟨%d, -, HS⟩, HR⟩, Hg⟩, Ho, ⟨%d0, H0⟩, ⟨%d1, H1⟩, H2⟩
    iapply (sound_kernel1_A c Set.univ (grid1.coords t) _ _ _ _ _ _ _ _ ((hcond1_0 t).mpr h0) hn1 (iblk1 V c 0 t) (iblk1 V c 1 t) _)
    isplitl [H0]; · iexact H0
    isplitl [H1]; · iexact H1
    isplitl [HS]; · iexists _; iexact HS
    iintro ⟨H0, H1, HS⟩
    isplitl [HS HR Hg]
    · isplitl [HS HR]
      · isplitl [HS]
        · iexists _; isplitr
          swap; · iexact HS
          ipureintro; intro _; exact (acc1_reset V c t h0).symm
        iexact HR
      iexact Hg
    isplitl [Ho]; · iexact Ho
    isplitl [H0]; · iexact H0
    isplitl [H1]; · iexact H1
    iexact H2
  · by_cases h1 : t.val % 4 = 3
    · -- the accumulator is stepped and copied into the result block's buffer
      have hc1 : cond1_1 (grid1.coords t) := (hcond1_1 t).mpr h1
      have hn0 : ¬cond1_0 (grid1.coords t) := fun h => h0 ((hcond1_0 t).mp h)
      rw [show (dat1 V c).leavesExact 2 t = owns (c : Thread nD τ) (st1_2 t) fullShare ((dat1 V c).after 2 t) from by
        unfold Dat.leavesExact; rw [liveAt1_2 t hc1], after1_2]
      iintro ⟨⟨⟨⟨%d, %hd, HS⟩, HR⟩, Hg⟩, Ho, ⟨%d0, H0⟩, ⟨%d1, H1⟩, ⟨%d2, H2⟩⟩
      obtain rfl := hd h0
      iapply (sound_kernel1_C c Set.univ (grid1.coords t) _ _ _ _ _ _ _ _ hn0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      rw [acc1_step V c t h0]
      isplitl [HS HR Hg]
      · isplitl [HS HR]
        · isplitl [HS]
          · iexists _; isplitr
            swap; · iexact HS
            ipureintro; intro _; rfl
          iexact HR
        iexact Hg
      isplitl [Ho]; · iexact Ho
      isplitl [H0]; · iexact H0
      isplitl [H1]; · iexact H1
      iexact H2
    · -- the accumulator is stepped; the result block's buffer is left alone
      have hn1 : ¬cond1_1 (grid1.coords t) := fun h => h1 ((hcond1_1 t).mp h)
      have hn0 : ¬cond1_0 (grid1.coords t) := fun h => h0 ((hcond1_0 t).mp h)
      rw [Dat.leavesExact_idle (dat1 V c) 2 t (idleAt1_2 t hn1) (noFlush1_2 t hn1)]
      iintro ⟨⟨⟨⟨%d, %hd, HS⟩, HR⟩, Hg⟩, Ho, ⟨%d0, H0⟩, ⟨%d1, H1⟩, H2⟩
      obtain rfl := hd h0
      iapply (sound_kernel1_B c Set.univ (grid1.coords t) _ _ _ _ _ _ _ _ hn0 hn1 (iblk1 V c 0 t) (iblk1 V c 1 t) _ _)
      isplitl [H0]; · iexact H0
      isplitl [H1]; · iexact H1
      isplitl [HS]; · iexact HS
      iintro ⟨H0, H1, HS⟩
      rw [acc1_step V c t h0]
      isplitl [HS HR Hg]
      · isplitl [HS HR]
        · isplitl [HS]
          · iexists _; isplitr
            swap; · iexact HS
            ipureintro; intro _; rfl
          iexact HR
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.I.R2.lean ====
/- Region 2 of @main (pallas_call 2, the attention kernel on a grid of 128 points), at the buffer contents V the
   region is entered with: each window's block at a point, what the body leaves in its two output buffers, the
   body's triple, the pipeline's proof data and the body obligation at every point. -/
import proofs.«108860_j55594056680006_2_alg».proof.Proof.Gen.KernelIdeal.Launch
import proofs.«108860_j55594056680006_2_alg».proof.Proof.Gen.KernelIdeal.Skeleton
import proofs.«108860_j55594056680006_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved since the point before, and the body leaves the block in place. Window 0
    (the query rows) is fetched at every point; windows 1 to 4 (keys, values, output weights, output bias) are whole
    arrays fetched once, their block index constant. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev rQ : Rect S64x512 := Rect.unit (s := S64x512) ![0, 0] S64x512.size inb_S64x512_S64x512_0_0
abbrev rK : Rect S8192x512 := Rect.unit (s := S8192x512) ![0, 0] S8192x512.size inb_S8192x512_S8192x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rP : Rect S64x8192 := Rect.unit (s := S64x8192) ![0, 0] S64x8192.size inb_S64x8192_S64x8192_0_0

/-! ## What the body leaves in each output window's buffer -/

/-- The attention-weights buffer (window 5) after the body: one whole-buffer store of the row softmax of the scaled
    query rows against the key rows. -/
def out2_5 (x0 : Vec F S64x512 .bf16) (x1 : Vec F S8192x512 .f32) : Vec F S64x8192 .f32 :=
  View.canon [⟨rP, k2_pay1 (View.ld x0 rQ) (View.ld x1 rK)⟩]

/-- The output buffer (window 6) after the body: one whole-buffer store of the weights times the values, projected
    and biased. -/
def out2_6 (x0 : Vec F S64x512 .bf16) (x1 : Vec F S8192x512 .f32) (x2 : Vec F S8192x512 .bf16) (x3 : Vec F S512x512 .bf16) (x4 : Vec F S1x512 .f32) : Vec F S64x512 .f32 :=
  View.canon [⟨rQ, k2_pay2 (View.ld x0 rQ) (View.ld x1 rK) (View.ld x2 rK) (View.ld x3 rW) (View.ld x4 rB)⟩]

/-- The one store of each output tiles its buffer, so it covers it. -/
theorem cover2_5 (p0 : Vec F S64x8192 .f32) (y : S64x8192.Idx) :
    ∃ pc ∈ ([⟨rP, p0⟩] : List (View.Piece (Elt F) S64x8192 .f32)), y ∈ pc.1.set :=
  View.cover_of_tiled [⟨rP, p0⟩] S64x8192.size (by rfl) y
theorem cover2_6 (p0 : Vec F S64x512 .f32) (y : S64x512.Idx) :
    ∃ pc ∈ ([⟨rQ, p0⟩] : List (View.Piece (Elt F) S64x512 .f32)), y ∈ pc.1.set :=
  View.cover_of_tiled [⟨rQ, p0⟩] S64x512.size (by rfl) y

/-! ## The body's triple -/

set_option maxHeartbeats 4000000 in
/-- The kernel body on whole staging memrefs, the five inputs' at read contents and the two outputs' at anything, runs
    to the continuation holding the inputs' as they were and each output's at what its one store leaves. The body
    loads each output buffer before storing it; neither loaded value is read. -/
theorem sound_kernel2 (c : Dev nD) (E : Set ℕ) (i : grid2.Coords)
    (arg1 : Memref sig .tc .vmem S64x512 .bf16) (harg1 : arg1.IsWhole) (arg2 : Memref sig .tc .vmem S8192x512 .f32) (harg2 : arg2.IsWhole)
    (arg3 : Memref sig .tc .vmem S8192x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S64x8192 .f32) (harg6 : arg6.IsWhole)
    (arg7 : Memref sig .tc .vmem S64x512 .f32) (harg7 : arg7.IsWhole)
    (x0 : Vec F S64x512 .bf16) (x1 : Vec F S8192x512 .f32) (x2 : Vec F S8192x512 .bf16) (x3 : Vec F S512x512 .bf16) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1) ∗ owns (c : Thread nD τ) arg7 fullShare (out2_6 x0 x1 x2 x3 x4)) -∗ K ⟨⟩))
      ⊢ wp frame (wpE (defs₀ (F := F)) Variants.none c none) E (cc2__attn_kernel i arg1 harg1 arg2 harg2 arg3 harg3 arg4 harg4 arg5 harg5 arg6 harg6 arg7 harg7) K := by
  simp only [cc2__attn_kernel_eq_skeleton]; unfold cc2__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The pipeline's proof data -/

/-- The proof data of this pipeline on core c: the arrays as the region finds them; after the body at point t each
    input's buffer at its block and each output's at what the body's store leaves, as a function of the input blocks;
    the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- The invariant is the same at the first and at the last point. -/
theorem hin2 (c : Dev nD) : Pipeline.ΦA spec2 c ⊢ (dat2 V c).Φ 0 := .rfl
theorem hout2 (c : Dev nD) : (dat2 V c).Φ (Fin.last cfg2.N) ⊢ Pipeline.ΦA spec2 c := .rfl

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and the
    core's owed tokens pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.I.Run.lean ====
/-
  The kernel program's run, at any float instance: @main as five segments — two host operations, the projection
  launch, the key launch, two host operations, the attention launch — over the thread state "every unscoped buffer
  of the core at the boundary's contents, the generator register at some state, nothing owed".

  The buffers' contents at the six boundaries are a fold from the launch memory: a host stretch applies its
  operations; a launch leaves its input arrays as entered and each output array with every write-back folded in, and
  every other buffer as entered. The run's post reads the two results and the six arguments off the last boundary.
-/
import proofs.«108860_j55594056680006_2_alg».proof.Proof.I.R0
import proofs.«108860_j55594056680006_2_alg».proof.Proof.I.R1
import proofs.«108860_j55594056680006_2_alg».proof.Proof.I.R2
import proofs.«108860_j55594056680006_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first two host operations (the weight rounded to bf16, the bias kept as a row). -/
abbrev W1 : Dev nD → Valuation τ sig (Elt F) := fun c => StableHlo.after hostOps0 (W0 m ρ c)
/-- The same read at the TensorCore's references: what the projection launch is entered from. -/
abbrev V1 : (c : Dev nD) → (b : Ref sig .tc) → Buf (Elt F) ((c : Thread nD τ).loc b) := fun c b => W1 m ρ c b

/-- At launch 0's exit: its arrays at what the pipeline leaves (an input as entered, an output with every
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At launch 1's exit: its arrays at what the pipeline leaves (an input as entered, an output with every
    write-back folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second pair of host operations (the output weight rounded to bf16, the output bias kept as a row). -/
abbrev W4 : Dev nD → Valuation τ sig (Elt F) := fun c => StableHlo.after hostOps2 (W3 m ρ c)
/-- The same read at the TensorCore's references: what the attention launch is entered from. -/
abbrev V4 : (c : Dev nD) → (b : Ref sig .tc) → Buf (Elt F) ((c : Thread nD τ).loc b) := fun c b => W4 m ρ c b

/-- At launch 2's exit: its arrays at what the pipeline leaves (an input as entered, an output with every
    write-back folded in), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched -/

/-- `main_arg0` ends as launched: no host operation writes it and no launch changes it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl

/-- `main_arg1` ends as launched: no host operation writes it and no launch changes it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_writes_sub hostOps2 _ hostOps2_writes (r := main_arg1) (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-- `main_arg2` ends as launched: no host operation writes it and no launch changes it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

/-- `main_arg3` ends as launched: no host operation writes it and no launch changes it. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_writes_sub hostOps2 _ hostOps2_writes (r := main_arg3) (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-- `main_arg4` ends as launched: no host operation writes it and no launch changes it. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_writes_sub hostOps2 _ hostOps2_writes (r := main_arg4) (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

/-- `main_arg5` ends as launched: no host operation writes it and no launch changes it. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_writes_sub hostOps2 _ hostOps2_writes (r := main_arg5) (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

/-! ## The proof data family and the thread state -/

/-- No launch has a prefetched table. -/
abbrev adm : (p : Fin 3) → (pcfgs (F := F) p).Adm := fun p => (cfgs p).toPCfg_adm
/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- The projection launch over the thread state: its arrays split out of the unscoped buffers at entry and put back at the exit contents; the generator register into the launch's invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ BI.emp
        ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The key launch over the thread state, in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch over the thread state, left at the last boundary's contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1
        ∗ Pipeline.scopedRest (Pipeline.pin (pcfgs (F := F)) adm 2).spec c) ⊢ (Pipeline.ΦA spec2 c : sProp 𝕄) := by
      unfold Pipeline.ΦA
      iintro ⟨Hp, -, Hr⟩
      isplitl [Hr]; · iexact Hr
      iexact Hp
    exact h.trans (hin2 (V4 m ρ) c)
  hout c := by
    rw [Pipeline.ownSems0_none]
    have h : (Pipeline.ΦA spec2 c : sProp 𝕄) ⊢ iprop((∃ r, prngReg c r) ∗ BI.emp
        ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (V4 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run with its post read at the program's results and arguments: each result array at what the attention launch's
    write-backs leave, each argument as launched. -/
theorem run : θ_run defs (onTc (τ := τ) (main (F := F))) ⟨m, fun _ => 0, ρ⟩ (fun r => ∀ c : Dev nD,
      r.2.mem ((c.tc : Thread nD τ).loc main_v6_1) = W5 m ρ c (Proc.devRef .tc main_v6_1)
      ∧ r.2.mem ((c.tc : Thread nD τ).loc main_v6_0) = W5 m ρ c (Proc.devRef .tc main_v6_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v6_1 (by decide)), h c _ (mem_uc main_v6_0 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Hand

end
-- ==== Proof.Spec.lean ====
/-
  The mathematics both programs compute, as functions of the six argument arrays read as extended reals.

  With x : [8192, 512], A : [8192, 8192], W : [512, 1536], b : [1536], Wo : [512, 512], bo : [512]:
  * `proj r j`   = Σ_k x(r,k) · W(k,j) + b(j): the joint projection; its column blocks 0..511, 512..1023, 1024..1535
                    are the queries, the keys and the values;
  * `keys r d`   = Σ_k A(r,k) · proj k (512+d): the keys mixed through the adjacency;
  * `logit r s`  = (Σ_d proj r d · keys s d) · c, c the scale's binary value;
  * `weight r s` = exp(logit r s − max_s' logit r s') / Σ_s' exp(logit r s' − max): the row softmax;
  * `mixed r d`  = Σ_s weight r s · proj s (1024+d);
  * `out r e`    = Σ_d mixed r d · Wo(d,e) + bo(e).
  The two results of either program are `out` and `weight`.
-/
import Idealize.ShloMosaic.PureOps.Ideal
import Idealize.ShloMosaic.Lib.ValueIdx

noncomputable section

namespace Cert.Spec

open Idealize.ShloMosaic Idealize.ShloMosaic.ValueIdx

/-- The scale 1/√512 as the binary value both programs carry. -/
abbrev scale : EReal := Ideal.ofBits .f32 0x3D3504F3#32
/-- The starting value of a row maximum: −∞. -/
abbrev negInf : EReal := Ideal.ofBits .f32 0xFF800000#32

variable (x : FVec Ideal ⟨2, ![8192, 512]⟩ .f32) (A : FVec Ideal ⟨2, ![8192, 8192]⟩ .f32)
  (W : FVec Ideal ⟨2, ![512, 1536]⟩ .f32) (b : FVec Ideal ⟨1, ![1536]⟩ .f32)
  (Wo : FVec Ideal ⟨2, ![512, 512]⟩ .f32) (bo : FVec Ideal ⟨1, ![512]⟩ .f32)

/-- The joint projection x·W + b at row `r`, column `j`. -/
def proj (r : Fin 8192) (j : Fin 1536) : EReal :=
  (∑ k : Fin 512, x (ix2 r k) * W (ix2 k j)) + b (ix1 j)

/-- Column `d` of the query block. -/
abbrev qcol (d : Fin 512) : Fin 1536 := ⟨d.val, by have := d.isLt; omega⟩
/-- Column `d` of the key block. -/
abbrev kcol (d : Fin 512) : Fin 1536 := ⟨512 + d.val, by have := d.isLt; omega⟩
/-- Column `d` of the value block. -/
abbrev vcol (d : Fin 512) : Fin 1536 := ⟨1024 + d.val, by have := d.isLt; omega⟩

/-- The keys mixed through the adjacency: A · K. -/
def keys (r : Fin 8192) (d : Fin 512) : EReal :=
  ∑ k : Fin 8192, A (ix2 r k) * proj x W b k (kcol d)

/-- The scaled logits (Q · keysᵀ) · c. -/
def logit (r s : Fin 8192) : EReal :=
  (∑ d : Fin 512, proj x W b r (qcol d) * keys x A W b s d) * scale

/-- The maximum of row `r` of the logits, from −∞. -/
def rowMax (r : Fin 8192) : EReal :=
  (Finset.univ : Finset (Fin 8192)).fold max negInf (fun s => logit x A W b r s)

/-- The shifted exponential. -/
def expo (r s : Fin 8192) : EReal := Ideal.exp (logit x A W b r s - rowMax x A W b r)

/-- The normaliser of row `r`. -/
def rowSum (r : Fin 8192) : EReal := ∑ s : Fin 8192, expo x A W b r s

/-- The softmax weight. -/
def weight (r s : Fin 8192) : EReal := Ideal.div (expo x A W b r s) (rowSum x A W b r)

/-- The values mixed by the weights. -/
def mixed (r : Fin 8192) (d : Fin 512) : EReal :=
  ∑ s : Fin 8192, weight x A W b r s * proj x W b s (vcol d)

/-- The output projection. -/
def out (r : Fin 8192) (e : Fin 512) : EReal :=
  (∑ d : Fin 512, mixed x A W b r d * Wo (ix2 d e)) + bo (ix1 e)

/-- The first result as an array. -/
def outArr : FVec Ideal ⟨2, ![8192, 512]⟩ .f32 := fun i => out x A W b Wo bo (i 0) (i 1)
/-- The second result as an array. -/
def weightArr : FVec Ideal ⟨2, ![8192, 8192]⟩ .f32 := fun i => weight x A W b (i 0) (i 1)

end Cert.Spec

end
-- ==== Proof.KSpec.lean ====
/-
  What each of the kernel program's three launches leaves in its result arrays, as functions of the arrays the
  launch reads, over the extended reals (a change of float format is the identity there, so the element type of
  an operand plays no part).

  * the projection launch, from X : [8192, 512], Wt : [512, 1536] and the bias kept as a row Bt : [1, 1536]:
    column block `j` of X·Wt + Bt, for j = 0, 1, 2 (`projBlock`);
  * the key launch, from A : [8192, 8192] and Kt : [8192, 512]: the product A·Kt (`keyMix`);
  * the attention launch, from Q, Kn, Vt : [8192, 512], Wot : [512, 512] and the bias row Bot : [1, 512]:
    the row softmax of (Q·c)·Knᵀ (`attn`), and (attn·Vt)·Wot + Bot (`attnOut`).
-/
import Idealize.ShloMosaic.PureOps.Ideal
import Idealize.ShloMosaic.Lib.ValueIdx
import proofs.«108860_j55594056680006_2_alg».proof.Proof.Spec

noncomputable section

namespace Cert.KSpec

open Idealize.ShloMosaic Idealize.ShloMosaic.ValueIdx Cert.Spec

/-- Column `d` of column block `j` of a [·, 1536] array. -/
abbrev bcol (j : Fin 3) (d : Fin 512) : Fin 1536 := ⟨512 * j.val + d.val, by have := d.isLt; have := j.isLt; omega⟩

/-- Column block `j` of X·Wt + Bt at row `r`, column `d` of the block. -/
def projBlock {φx φw φb : FTy} (X : FVec Ideal ⟨2, ![8192, 512]⟩ φx) (Wt : FVec Ideal ⟨2, ![512, 1536]⟩ φw)
    (Bt : FVec Ideal ⟨2, ![1, 1536]⟩ φb) (j : Fin 3) (r : Fin 8192) (d : Fin 512) : EReal :=
  (∑ k : Fin 512, X (ix2 r k) * Wt (ix2 k (bcol j d))) + Bt (ix2 (0 : Fin 1) (bcol j d))

/-- The product A·Kt at (r, d). -/
def keyMix {φa φk : FTy} (A : FVec Ideal ⟨2, ![8192, 8192]⟩ φa) (Kt : FVec Ideal ⟨2, ![8192, 512]⟩ φk)
    (r : Fin 8192) (d : Fin 512) : EReal :=
  ∑ k : Fin 8192, A (ix2 r k) * Kt (ix2 k d)

section Attn

variable {φq φk φv φw φb : FTy} (Q : FVec Ideal ⟨2, ![8192, 512]⟩ φq) (Kn : FVec Ideal ⟨2, ![8192, 512]⟩ φk)
  (Vt : FVec Ideal ⟨2, ![8192, 512]⟩ φv) (Wot : FVec Ideal ⟨2, ![512, 512]⟩ φw) (Bot : FVec Ideal ⟨2, ![1, 512]⟩ φb)

/-- The logits with the scale applied to the queries first: Σ_d (Q(r,d)·c)·Kn(s,d). -/
def lg (r s : Fin 8192) : EReal := ∑ d : Fin 512, (Q (ix2 r d) * scale) * Kn (ix2 s d)

/-- The maximum of row `r` of the logits, from −∞. -/
def lgMax (r : Fin 8192) : EReal := (Finset.univ : Finset (Fin 8192)).fold max negInf (fun s => lg Q Kn r s)

/-- The shifted exponential. -/
def lgExp (r s : Fin 8192) : EReal := Ideal.exp (lg Q Kn r s - lgMax Q Kn r)

/-- The softmax weight of (r, s). -/
def attn (r s : Fin 8192) : EReal := Ideal.div (lgExp Q Kn r s) (∑ s' : Fin 8192, lgExp Q Kn r s')

/-- (attn·Vt)·Wot + Bot at (r, e). -/
def attnOut (r : Fin 8192) (e : Fin 512) : EReal :=
  (∑ d : Fin 512, (∑ s : Fin 8192, attn Q Kn r s * Vt (ix2 s d)) * Wot (ix2 d e)) + Bot (ix2 (0 : Fin 1) e)

end Attn

end Cert.KSpec

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.I.V0.lean ====
/-
  The value of the projection launch on the extended reals.

  At grid point t the body forms, from rows 1024·t … 1024·t + 1023 of the input X, the whole weight Wt and the bias
  row Bt, the block of X·Wt + Bt; a change of float format is the identity on the extended reals and the product is
  accumulated onto zero, so entry (p, q) of the block is Σ_k X(1024·t + p, k) · Wt(k, q) + Bt(0, q). The three stores
  write its column blocks 0…511, 512…1023, 1024…1535 to rows 1024·t … of the three result arrays; the eight points'
  row blocks tile the 8192 rows, so each result array ends holding the corresponding column block of X·Wt + Bt.
-/
import proofs.«108860_j55594056680006_2_alg».proof.Proof.I.R0
import proofs.«108860_j55594056680006_2_alg».proof.Proof.KSpec
import proofs.«108860_j55594056680006_2_alg».proof.Proof.LibPlainMatmul
import Idealize.ShloMosaic.Lib.Pipeline.Value
import Idealize.ShloMosaic.Lib.ValueLayout
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The body's arithmetic at an entry -/

/-- Entry (p, q) of the projected block: the row of the input block against column q of the weight, plus the bias row
    at q. -/
theorem pay0_1_apply (x0 : Vec Ideal S1024x512 .f32) (x1 : Vec Ideal S512x1536 .bf16) (x2 : Vec Ideal S1x1536 .f32)
    (p : Fin 1024) (q : Fin 1536) :
    k0_pay1 (F := Ideal) x0 x1 x2 (ix2 p q)
      = (∑ k : Fin 512, x0 (ix2 p k) * x1 (ix2 k q)) + x2 (ix2 (0 : Fin 1) q) := by
  have hm : FloatOps.matmul (F := Ideal) (φ₁ := .bf16) (φ₂ := .bf16) dot_S1024x512_S512x1536_S1024x1536_1_0_0_1_n_n none
      (truncf .bf16 x0 bitsLt_bf16_f32) x1 (constant S1024x1536 .f32 0x00000000#32) (ix2 p q)
      = ∑ k : Fin 512, x0 (ix2 p k) * x1 (ix2 k q) :=
    Cert.PlainMatmul.zero_acc_apply (φ₁ := .bf16) (φ₂ := .bf16) dot_S1024x512_S512x1536_S1024x1536_1_0_0_1_n_n_wf none
      (truncf .bf16 x0 bitsLt_bf16_f32) x1 p q
  have hb : broadcastTo S1024x1536 x2 broadcasts_S1x1536_S1024x1536 (ix2 p q) = x2 (ix2 (0 : Fin 1) q) :=
    broadcastTo_1b_ab_apply x2 broadcasts_S1x1536_S1024x1536 p q
  unfold k0_pay1
  simp only [shapeCast_self]
  exact congrArg₂ (· + ·) hm hb

/-- Column block j of the projected block at (p, d), when the input block's row p is row r of X and the other two
    blocks are the whole weight and the whole bias row. -/
theorem pay0_blk (x0 : Vec Ideal S1024x512 .f32) (x1 : Vec Ideal S512x1536 .bf16) (x2 : Vec Ideal S1x1536 .f32)
    (X : FVec Ideal ⟨2, ![8192, 512]⟩ .f32) (Wt : FVec Ideal ⟨2, ![512, 1536]⟩ .bf16) (Bt : FVec Ideal ⟨2, ![1, 1536]⟩ .f32)
    (j : Fin 3) (p : Fin 1024) (d : Fin 512) (r : Fin 8192)
    (h0 : ∀ k : Fin 512, x0 (ix2 p k) = X (ix2 r k))
    (h1 : ∀ (k : Fin 512) (q : Fin 1536), x1 (ix2 k q) = Wt (ix2 k q))
    (h2 : ∀ q : Fin 1536, x2 (ix2 (0 : Fin 1) q) = Bt (ix2 (0 : Fin 1) q)) :
    k0_pay1 (F := Ideal) x0 x1 x2 (ix2 p (KSpec.bcol j d)) = KSpec.projBlock X Wt Bt j r d := by
  rw [pay0_1_apply]
  unfold KSpec.projBlock
  rw [h2]
  congr 1
  exact Finset.sum_congr rfl fun k _ => by rw [h0, h1]

/-- A slice of 512 columns from column `off` of a [1024, 1536] array, read at (p, d): the array at (p, off + d). -/
theorem slice0_apply {α : Type} (off : ℕ) (y : S1024x1536.Idx → α) (h : S1024x1536.Slices ![0, off] S1024x512)
    (p : Fin 1024) (d : Fin 512) (q : Fin 1536) (hq : q.val = off + d.val) :
    extractStridedSlice S1024x512 ![0, off] y h (ix2 p d) = y (ix2 p q) :=
  extractStridedSlice_apply ![0, off] y h (ix2 p d) (ix2 p q) (fun a => match a with
    | ⟨0, _⟩ => by show p.val = 0 + p.val; omega
    | ⟨1, _⟩ => by show q.val = off + d.val; exact hq)

/-- The first store's payload: columns 0 … 511 of the projected block. -/
theorem pay0_2_slice (x0 : Vec Ideal S1024x512 .f32) (x1 : Vec Ideal S512x1536 .bf16) (x2 : Vec Ideal S1x1536 .f32)
    (p : Fin 1024) (d : Fin 512) :
    k0_pay2 (F := Ideal) x0 x1 x2 (ix2 p d) = k0_pay1 (F := Ideal) x0 x1 x2 (ix2 p (KSpec.bcol 0 d)) := by
  unfold k0_pay2
  generalize k0_pay1 (F := Ideal) x0 x1 x2 = y
  exact slice0_apply 0 y slices_S1024x1536_o0_0_S1024x512 p d (KSpec.bcol 0 d) (by show 512 * 0 + d.val = 0 + d.val; omega)

/-- The second store's payload: columns 512 … 1023. -/
theorem pay0_3_slice (x0 : Vec Ideal S1024x512 .f32) (x1 : Vec Ideal S512x1536 .bf16) (x2 : Vec Ideal S1x1536 .f32)
    (p : Fin 1024) (d : Fin 512) :
    k0_pay3 (F := Ideal) x0 x1 x2 (ix2 p d) = k0_pay1 (F := Ideal) x0 x1 x2 (ix2 p (KSpec.bcol 1 d)) := by
  unfold k0_pay3
  generalize k0_pay1 (F := Ideal) x0 x1 x2 = y
  exact slice0_apply 512 y slices_S1024x1536_o0_512_S1024x512 p d (KSpec.bcol 1 d) (by show 512 * 1 + d.val = 512 + d.val; omega)

/-- The third store's payload: columns 1024 … 1535. -/
theorem pay0_4_slice (x0 : Vec Ideal S1024x512 .f32) (x1 : Vec Ideal S512x1536 .bf16) (x2 : Vec Ideal S1x1536 .f32)
    (p : Fin 1024) (d : Fin 512) :
    k0_pay4 (F := Ideal) x0 x1 x2 (ix2 p d) = k0_pay1 (F := Ideal) x0 x1 x2 (ix2 p (KSpec.bcol 2 d)) := by
  unfold k0_pay4
  generalize k0_pay1 (F := Ideal) x0 x1 x2 = y
  exact slice0_apply 1024 y slices_S1024x1536_o0_1024_S1024x512 p d (KSpec.bcol 2 d) (by show 512 * 2 + d.val = 1024 + d.val; omega)

/-! ## From the blocks to the arrays -/

variable (V : (c : Dev nD) → (b : Ref sig .tc) → Buf (Elt Ideal) ((c : Thread nD τ).loc b))

theorem hz0 : (![0, 0] : Fin 2 → Nat) = fun _ => 0 := funext fun a => by fin_cases a <;> rfl

/-- Column block j of X·Wt + Bt over the arrays as the launch finds them. -/
def G0 (c : Dev nD) (j : Fin 3) : FVec Ideal ⟨2, ![8192, 512]⟩ .bf16 :=
  fun i => KSpec.projBlock (φx := .f32) (φw := .bf16) (φb := .f32) (V c main_arg0) (V c main_v0) (V c main_v1) j (i 0) (i 1)

/-- The grid has 8 points. -/
theorem N0_eq : cfg0.N = 8 := N_0

/-- The printed index maps over the grid: the row-blocked windows are at block t, the whole-array windows at block 0. -/
theorem idx0_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The input rows' block at point t is rows 1024·t … of the input. -/
theorem iblk0_0_apply (c : Dev nD) (t : Fin cfg0.N) (p : Fin 1024) (k : Fin 512) (r : Fin 8192)
    (hr : r.val = 1024 * t.val + p.val) :
    (iblk0 V c 0 t : Vec Ideal S1024x512 .f32) (ix2 p k) = (V c main_arg0 : FVec Ideal ⟨2, ![8192, 512]⟩ .f32) (ix2 r k) := by
  obtain ⟨e0, e1, -⟩ := idx0_facts t
  unfold iblk0
  rw [View.read_apply]
  show V c main_arg0 _ = V c main_arg0 _
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

/-- The weight's block at any point is the whole weight. -/
theorem iblk0_1_apply (c : Dev nD) (t : Fin cfg0.N) (k : Fin 512) (q : Fin 1536) :
    (iblk0 V c 1 t : Vec Ideal S512x1536 .bf16) (ix2 k q) = (V c main_v0 : FVec Ideal ⟨2, ![512, 1536]⟩ .bf16) (ix2 k q) := by
  obtain ⟨-, -, e0, e1, -⟩ := idx0_facts t
  unfold iblk0
  rw [View.read_apply]
  show V c main_v0 _ = V c main_v0 _
  refine congrArg _ (funext fun a => Fin.ext ?_)
  match a with
  | ⟨0, _⟩ => show win0_1.index t (0 : Fin 2) * 512 + 1 * k.val = k.val; rw [e0]; omega
  | ⟨1, _⟩ => show win0_1.index t (1 : Fin 2) * 1536 + 1 * q.val = q.val; rw [e1]; omega

/-- The bias row's block at any point is the whole row. -/
theorem iblk0_2_apply (c : Dev nD) (t : Fin cfg0.N) (q : Fin 1536) :
    (iblk0 V c 2 t : Vec Ideal S1x1536 .f32) (ix2 (0 : Fin 1) q) = (V c main_v1 : FVec Ideal ⟨2, ![1, 1536]⟩ .f32) (ix2 (0 : Fin 1) q) := by
  obtain ⟨-, -, -, -, e0, e1, -⟩ := idx0_facts t
  unfold iblk0
  rw [View.read_apply]
  show V c main_v1 _ = V c main_v1 _
  refine congrArg _ (funext fun a => Fin.ext ?_)
  match a with
  | ⟨0, _⟩ => show win0_2.index t (0 : Fin 2) * 1 + 1 * 0 = 0; rw [e0]
  | ⟨1, _⟩ => show win0_2.index t (1 : Fin 2) * 1536 + 1 * q.val = q.val; rw [e1]; omega

/-- The projected block at point t, column block j, entry (p, d): column block j of X·Wt + Bt at row 1024·t + p. -/
theorem point0 (c : Dev nD) (t : Fin cfg0.N) (j : Fin 3) (p : Fin 1024) (d : Fin 512) (r : Fin 8192)
    (hr : r.val = 1024 * t.val + p.val) :
    k0_pay1 (F := Ideal) (iblk0 V c 0 t) (iblk0 V c 1 t) (iblk0 V c 2 t) (ix2 p (KSpec.bcol j d)) = G0 V c j (ix2 r d) :=
  pay0_blk (iblk0 V c 0 t) (iblk0 V c 1 t) (iblk0 V c 2 t) (V c main_arg0) (V c main_v0) (V c main_v1) j p d r
    (fun k => iblk0_0_apply V c t p k r hr) (fun k q => iblk0_1_apply V c t k q) (fun q => iblk0_2_apply V c t q)

/-- What the body leaves in each output buffer is the store's payload of the three input blocks. -/
theorem out0_3_eq {F : FTy → Type} [FloatOps F] (x0 : Vec F S1024x512 .f32) (x1 : Vec F S512x1536 .bf16) (x2 : Vec F S1x1536 .f32) :
    out0_3 x0 x1 x2 = k0_pay2 x0 x1 x2 := by
  unfold out0_3
  rw [View.canon_unit_zero hz0]
  simp only [View.ld_unit_zero (S := S1024x512) hz0, View.ld_unit_zero (S := S512x1536) hz0, View.ld_unit_zero (S := S1x1536) hz0]
theorem out0_4_eq {F : FTy → Type} [FloatOps F] (x0 : Vec F S1024x512 .f32) (x1 : Vec F S512x1536 .bf16) (x2 : Vec F S1x1536 .f32) :
    out0_4 x0 x1 x2 = k0_pay3 x0 x1 x2 := by
  unfold out0_4
  rw [View.canon_unit_zero hz0]
  simp only [View.ld_unit_zero (S := S1024x512) hz0, View.ld_unit_zero (S := S512x1536) hz0, View.ld_unit_zero (S := S1x1536) hz0]
theorem out0_5_eq {F : FTy → Type} [FloatOps F] (x0 : Vec F S1024x512 .f32) (x1 : Vec F S512x1536 .bf16) (x2 : Vec F S1x1536 .f32) :
    out0_5 x0 x1 x2 = k0_pay4 x0 x1 x2 := by
  unfold out0_5
  rw [View.canon_unit_zero hz0]
  simp only [View.ld_unit_zero (S := S1024x512) hz0, View.ld_unit_zero (S := S512x1536) hz0, View.ld_unit_zero (S := S1x1536) hz0]

/-- What a write-back of a whole [1024, 512] buffer moves, read at an index of the block: the buffer there. -/
theorem cut0_3_apply {α : Type} (t : Fin cfg0.N) (X : S1024x512.Idx → α) (y : ((cfg0.win 3).xblock (grid0.coords t)).Idx) :
    (cfg0.win 3).cut (grid0.coords t) X y = X (ix2 (⟨(y 0).val, (y 0).isLt⟩ : Fin 1024) (⟨(y 1).val, (y 1).isLt⟩ : Fin 512)) :=
  congrArg X (funext fun a => by match a with | ⟨0, _⟩ => rfl | ⟨1, _⟩ => rfl)
theorem cut0_4_apply {α : Type} (t : Fin cfg0.N) (X : S1024x512.Idx → α) (y : ((cfg0.win 4).xblock (grid0.coords t)).Idx) :
    (cfg0.win 4).cut (grid0.coords t) X y = X (ix2 (⟨(y 0).val, (y 0).isLt⟩ : Fin 1024) (⟨(y 1).val, (y 1).isLt⟩ : Fin 512)) :=
  congrArg X (funext fun a => by match a with | ⟨0, _⟩ => rfl | ⟨1, _⟩ => rfl)
theorem cut0_5_apply {α : Type} (t : Fin cfg0.N) (X : S1024x512.Idx → α) (y : ((cfg0.win 5).xblock (grid0.coords t)).Idx) :
    (cfg0.win 5).cut (grid0.coords t) X y = X (ix2 (⟨(y 0).val, (y 0).isLt⟩ : Fin 1024) (⟨(y 1).val, (y 1).isLt⟩ : Fin 512)) :=
  congrArg X (funext fun a => by match a with | ⟨0, _⟩ => rfl | ⟨1, _⟩ => rfl)

/-- What point t writes back to the query array is block t of column block 0 of X·Wt + Bt. -/
theorem flushed0_3_eq (c : Dev nD) (t : Fin cfg0.N) :
    (dat0 V c).flushed 3 t = ((cfg0.win 3).blk t).view.read (Elt Ideal) (G0 V c 0) := by
  show (cfg0.win 3).cut (grid0.coords t) ((dat0 V c).after 3 t) = _
  rw [after0_3, out0_3_eq]
  funext y
  have e0 : win0_3.index t (0 : Fin 2) = t.val := (idx0_facts t).2.2.2.2.2.2.1
  have e1 : win0_3.index t (1 : Fin 2) = 0 := (idx0_facts t).2.2.2.2.2.2.2.1
  have ht : t.val < 8 := lt_of_lt_of_eq t.isLt N0_eq
  have hp : (y 0).val < 1024 := (y 0).isLt
  have hd : (y 1).val < 512 := (y 1).isLt
  refine (cut0_3_apply t (k0_pay2 (F := Ideal) (iblk0 V c 0 t) (iblk0 V c 1 t) (iblk0 V c 2 t)) y).trans ?_
  refine (pay0_2_slice _ _ _ _ _).trans ?_
  refine (point0 V c t 0 _ _ ⟨1024 * t.val + (y 0).val, by omega⟩ rfl).trans ?_
  rw [View.read_apply]
  refine congrArg (G0 V c 0) (funext fun a => Fin.ext ?_)
  match a with
  | ⟨0, _⟩ => show 1024 * t.val + (y 0).val = win0_3.index t (0 : Fin 2) * 1024 + 1 * (y 0).val; rw [e0]; omega
  | ⟨1, _⟩ => show (y 1).val = win0_3.index t (1 : Fin 2) * 512 + 1 * (y 1).val; rw [e1]; omega

/-- Every entry of the query array is in the block of the point its row falls in: point ⌊row / 1024⌋. -/
theorem cover0_3 (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  obtain ⟨t, htv⟩ : ∃ t : Fin cfg0.N, t.val = (i 0).val / 1024 := ⟨⟨(i 0).val / 1024, by rw [N0_eq]; omega⟩, rfl⟩
  have e0 : win0_3.index t (0 : Fin 2) = t.val := (idx0_facts t).2.2.2.2.2.2.1
  have e1 : win0_3.index t (1 : Fin 2) = 0 := (idx0_facts t).2.2.2.2.2.2.2.1
  refine ⟨t, flush0_3 t, ?_⟩
  show i ∈ ((View.whole main_v2_0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [e0, htv]; omega
  | ⟨1, _⟩ => show win0_3.index t (1 : Fin 2) * 512 ≤ (i 1).val ∧ (i 1).val < win0_3.index t (1 : Fin 2) * 512 + 512; rw [e1]; omega

/-- After the launch the query array holds column block 0 of X·Wt + Bt: the eight points' row blocks tile it. -/
theorem final0_3 (c : Dev nD) : (dat0 V c).arrAt 3 cfg0.N
    = fun i : (⟨2, ![8192, 512]⟩ : Shape).Idx => Cert.KSpec.projBlock (φx := .f32) (φw := .bf16) (φb := .f32) (V c main_arg0) (V c main_v0) (V c main_v1) 0 (i 0) (i 1) :=
  (dat0 V c).arrAt_eq_of_cover 3 (G0 V c 0) (fun t _ => flushed0_3_eq V c t) (cover0_3 c)

/-- What point t writes back to the key array is block t of column block 1 of X·Wt + Bt. -/
theorem flushed0_4_eq (c : Dev nD) (t : Fin cfg0.N) :
    (dat0 V c).flushed 4 t = ((cfg0.win 4).blk t).view.read (Elt Ideal) (G0 V c 1) := by
  show (cfg0.win 4).cut (grid0.coords t) ((dat0 V c).after 4 t) = _
  rw [after0_4, out0_4_eq]
  funext y
  have e0 : win0_4.index t (0 : Fin 2) = t.val := (idx0_facts t).2.2.2.2.2.2.2.2.1
  have e1 : win0_4.index t (1 : Fin 2) = 0 := (idx0_facts t).2.2.2.2.2.2.2.2.2.1
  have ht : t.val < 8 := lt_of_lt_of_eq t.isLt N0_eq
  have hp : (y 0).val < 1024 := (y 0).isLt
  have hd : (y 1).val < 512 := (y 1).isLt
  refine (cut0_4_apply t (k0_pay3 (F := Ideal) (iblk0 V c 0 t) (iblk0 V c 1 t) (iblk0 V c 2 t)) y).trans ?_
  refine (pay0_3_slice _ _ _ _ _).trans ?_
  refine (point0 V c t 1 _ _ ⟨1024 * t.val + (y 0).val, by omega⟩ rfl).trans ?_
  rw [View.read_apply]
  refine congrArg (G0 V c 1) (funext fun a => Fin.ext ?_)
  match a with
  | ⟨0, _⟩ => show 1024 * t.val + (y 0).val = win0_4.index t (0 : Fin 2) * 1024 + 1 * (y 0).val; rw [e0]; omega
  | ⟨1, _⟩ => show (y 1).val = win0_4.index t (1 : Fin 2) * 512 + 1 * (y 1).val; rw [e1]; omega

/-- Every entry of the key array is in the block of the point its row falls in: point ⌊row / 1024⌋. -/
theorem cover0_4 (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : (i 0).val < 8192 := (i 0).isLt
  have hi1 : (i 1).val < 512 := (i 1).isLt
  obtain ⟨t, htv⟩ : ∃ t : Fin cfg0.N, t.val = (i 0).val / 1024 := ⟨⟨(i 0).val / 1024, by rw [N0_eq]; omega⟩, rfl⟩
  have e0 : win0_4.index t (0 : Fin 2) = t.val := (idx0_facts t).2.2.2.2.2.2.2.2.1
  have e1 : win0_4.index t (1 : Fin 2) = 0 := (idx0_facts t).2.2.2.2.2.2.2.2.2.1
  refine ⟨t, flush0_4 t, ?_⟩
  show i ∈ ((View.whole main_v2_1).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; rw [e0, htv]; omega
  | ⟨1, _⟩ => show win0_4.index t (1 : Fin 2) * 512 ≤ (i 1).val ∧ (i 1).val < win0_4.index t (1 : Fin 2) * 512 + 512; rw [e1]; omega

/-- After the launch the key array holds column block 1 of X·Wt + Bt: the eight points' row blocks tile it. -/
theorem final0_4 (c : Dev nD) : (dat0 V c).arrAt 4 cfg0.N
    = fun i : (⟨2, ![8192, 512]⟩ : Shape).Idx => Cert.KSpec.projBlock (φx := .f32) (φw := .bf16) (φb := .f32) (V c main_arg0) (V c main_v0) (V c main_v1) 1 (i 0) (i 1) :=
  (dat0 V c).arrAt_eq_of_cover 4 (G0 V c 1) (fun t _ => flushed0_4_eq V c t) (cover0_4 c)

/-- What point t writes back to the value array is block t of column block 2 of X·Wt + Bt. -/
theorem flushed0_5_eq (c : Dev nD) (t : Fin cfg0.N) :
    (dat0 V c).flushed 5 t = ((cfg0.win 5).blk t).view.read (Elt Ideal) (G0 V c 2) := by
  show (cfg0.win 5).cut (grid0.coords t) ((dat0 V c).after 5 t) = _
  rw [after0_5, out0_5_eq]
  funext y
  have e0 : win0_5.index t (0 : Fin 2) = t.val := (idx0_facts t).2.2.2.2.2.2.2.2.2.2.1
  have e1 : win0_5.index t (1 : Fin 2) = 0 := (idx0_facts t).2.2.2.2.2.2.2.2.2.2.2
  have ht : t.val < 8 := lt_of_lt_of_eq t.isLt N0_eq
  have hp : (y 0).val < 1024 := (y 0).isLt
  have hd : (y 1).val < 512 := (y 1).isLt
  refine (cut0_5_apply t (k0_pay4 (F := Ideal) (iblk0 V c 0 t) (iblk0 V c 1 t) (iblk0 V c 2 t)) y).trans ?_
  refine (pay0_4_slice _ _ _ _ _).trans ?_
  refine (point0 V c t 2 _ _ ⟨1024 * t.val + (y 0).val, by omega⟩ rfl).trans ?_
  rw [View.read_apply]
  refine congrArg (G0 V c 2) (funext fun a => Fin.ext ?_)
  match a with
  | ⟨0, _⟩ => show 1024 * t.val + (y 0).val = win0_5.index t (0 : Fin 2) * 1024 + 1 * (y 0).val; rw [e0]; omega
  | ⟨1, _⟩ => show (y 1).val = win0_5.index t (1 : Fin 2) * 512 + 1 * (y 1).val; rw [e1]; omega

/-- Every entry of the value array is in the block of the point its row falls in: point ⌊row / 1024⌋. -/
theorem cover0_5 (c : Dev nD) (i : ((cfg0.win 5).arr.view.loc (c.tc : Thread nD τ)).2.ty.Idx) :
    ∃ t : Fin cfg0.N, (cfg0.win 5).flush t = true ∧ i ∈ ((cfg0.win 5).blk t).view.set := by
  have hi0 : (i 0).val < 8192 := (i 0).isLt
  have hi1 : (i 1).val < 512 := (i 1).isLt
  obtain ⟨t, htv⟩ : ∃ t : Fin cfg0.N, t.val = (i 0).val / 1024 := ⟨⟨(i 0).val / 1024, by rw [N0_eq]; omega⟩, rfl⟩
  have e0 : win0_5.index t (0 : Fin 2) = t.val := (idx0_facts t).2.2.2.2.2.2.2.2.2.2.1
  have e1 : win0_5.index t (1 : Fin 2) = 0 := (idx0_facts t).2.2.2.2.2.2.2.2.2.2.2
  refine ⟨t, flush0_5 t, ?_⟩
  show i ∈ ((View.whole main_v2_2).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; rw [e0, htv]; omega
  | ⟨1, _⟩ => show win0_5.index t (1 : Fin 2) * 512 ≤ (i 1).val ∧ (i 1).val < win0_5.index t (1 : Fin 2) * 512 + 512; rw [e1]; omega

/-- After the launch the value array holds column block 2 of X·Wt + Bt: the eight points' row blocks tile it. -/
theorem final0_5 (c : Dev nD) : (dat0 V c).arrAt 5 cfg0.N
    = fun i : (⟨2, ![8192, 512]⟩ : Shape).Idx => Cert.KSpec.projBlock (φx := .f32) (φw := .bf16) (φb := .f32) (V c main_arg0) (V c main_v0) (V c main_v1) 2 (i 0) (i 1) :=
  (dat0 V c).arrAt_eq_of_cover 5 (G0 V c 2) (fun t _ => flushed0_5_eq V c t) (cover0_5 c)

end Cert.KernelIdeal.HandV

end
-- ==== Proof.LibSumBlocks.lean ====
/-
  Regrouping a finite sum into consecutive blocks.

  A sum over the N = a * b indices 0, …, N - 1 is the sum, over the a blocks, of the sum over the b offsets inside a
  block: index i * b + j is offset j of block i.  Only commutativity and associativity of the addition are used, so the
  statement holds in any additive commutative monoid (the extended reals included).
-/
import Mathlib.Algebra.BigOperators.Fin
import Mathlib.Logic.Equiv.Fin.Basic

open scoped BigOperators

namespace Cert.SumBlocks

/-- Index `i * b + j` of block `i`, offset `j`, is below `a * b`. -/
theorem block_index_lt {a b : ℕ} (i : Fin a) (j : Fin b) : i.val * b + j.val < a * b := by
  have hi : i.val + 1 ≤ a := i.isLt
  have hj := j.isLt
  have h1 : (i.val + 1) * b ≤ a * b := Nat.mul_le_mul_right b hi
  rw [Nat.succ_mul] at h1
  omega

/-- A sum over `Fin N`, `N = a * b`, regrouped as `a` consecutive blocks of `b` terms. -/
theorem sum_blocks {M : Type*} [AddCommMonoid M] (a b N : ℕ) (hN : N = a * b) (f : Fin N → M) :
    ∑ n : Fin N, f n = ∑ i : Fin a, ∑ j : Fin b, f ⟨i.val * b + j.val, hN ▸ block_index_lt i j⟩ := by
  subst hN
  rw [← Fintype.sum_prod_type', ← (finProdFinEquiv (m := a) (n := b)).sum_comp]
  refine Finset.sum_congr rfl fun p _ => congrArg f (Fin.ext ?_)
  show p.2.val + b * p.1.val = p.1.val * b + p.2.val
  rw [Nat.mul_comm, Nat.add_comm]

end Cert.SumBlocks
-- ==== Proof.I.V1.lean ====
/-
  The key launch of the program (its second kernel call): what its result array ends holding, over the extended reals.

  The body's step adds, at (p, q), the sum over a block of 2048 contraction offsets of left (p, k) · right (k, q) to the
  accumulator; the accumulator starts every run of four points at zero; so after the fourth point of a run it holds the
  sum over all 8192 offsets, regrouped as four consecutive blocks — the whole product at that row block.  The points
  that write the result back are exactly those fourth points, and their blocks tile the result array: it ends holding
  the product of the two operand arrays as the call finds them.  Addition of extended reals is associative and
  commutative, so no finiteness is asked of the entries.
-/
import proofs.«108860_j55594056680006_2_alg».proof.Proof.I.R1
import proofs.«108860_j55594056680006_2_alg».proof.Proof.KSpec
import proofs.«108860_j55594056680006_2_alg».proof.Proof.LibPlainMatmul
import proofs.«108860_j55594056680006_2_alg».proof.Proof.LibSumBlocks
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-! ## The body's two payloads at an index, over the extended reals -/

/-- The zero block is zero at every index. -/
theorem zero1_apply (j : S1024x512.Idx) : (k1_pay1 (F := Ideal)) j = 0 := by
  unfold k1_pay1
  refine (congrFun (shapeCast_self _ _) j).trans ?_
  exact Ideal.ofBits_zero_f32

/-- The step at (p, q): the accumulator there plus the sum over the block's 2048 columns of left (p, k) · right (k, q)
    — a change of float format is the identity on the extended reals. -/
theorem step1_apply (x0 : Vec Ideal S1024x2048 .f32) (xs : Vec Ideal S1024x512 .f32) (x1 : Vec Ideal S2048x512 .bf16)
    (p : Fin 1024) (q : Fin 512) :
    k1_pay2 x0 xs x1 (ix2 p q) = xs (ix2 p q) + ∑ k : Fin 2048, x0 (ix2 p k) * x1 (ix2 k q) := by
  unfold k1_pay2
  refine (congrFun (shapeCast_self _ _) (ix2 p q)).trans ?_
  refine (addf_apply _ _ _).trans ?_
  refine congrArg (xs (ix2 p q) + ·) ?_
  have hd : dot_S1024x2048_S2048x512_S1024x512_1_0_0_1_n_n = Cert.PlainMatmul.dims dot_S1024x2048_S2048x512_S1024x512_1_0_0_1_n_n_wf := rfl
  rw [hd]
  refine (Cert.PlainMatmul.zero_acc_apply (a := 1024) (n := 2048) (b := 512) dot_S1024x2048_S2048x512_S1024x512_1_0_0_1_n_n_wf none _ _ p q).trans ?_
  refine Finset.sum_congr rfl fun k _ => ?_
  refine congrArg (x0 (ix2 p k) * ·) ?_
  exact congrFun (shapeCast_self x1 _) (ix2 k q)

/-! ## The operand blocks read at an index -/

section Value

variable (V : (c : Dev nD) → (b : Ref sig .tc) → Buf (Elt Ideal) ((c : Thread nD τ).loc b))

/-- The left operand array as the call finds it, -/
abbrev Aa1 (c : Dev nD) : FVec Ideal ⟨2, ![8192, 8192]⟩ .f32 := V c main_arg1
/-- the right operand array, -/
abbrev Kt1 (c : Dev nD) : FVec Ideal ⟨2, ![8192, 512]⟩ .bf16 := V c main_v2_1
/-- and their blocks at a point. -/
abbrev lblk1 (c : Dev nD) (n : ℕ) (hn : n < cfg1.N) : FVec Ideal S1024x2048 .f32 := iblk1 V c 0 ⟨n, hn⟩
abbrev rblk1 (c : Dev nD) (n : ℕ) (hn : n < cfg1.N) : FVec Ideal S2048x512 .bf16 := iblk1 V c 1 ⟨n, hn⟩

/-- The windows' block indices at a point, decided over the grid: the left operand's block is (t / 4, t % 4), the
    right operand's (t % 4, 0), the result's (t / 4, 0). -/
theorem idx1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-- Row `p` of the row block of point `n`, in an array of 8192 rows. -/
abbrev brow1 (n : ℕ) (hn : n < 32) (p : Fin 1024) : Fin 8192 := ⟨1024 * (n / 4) + p.val, by have := p.isLt; omega⟩
/-- Offset `k` of the contraction block of point `n`, among 8192. -/
abbrev bcol1 (n : ℕ) (k : Fin 2048) : Fin 8192 := ⟨2048 * (n % 4) + k.val, by have := k.isLt; omega⟩

/-- A point's position is below 32. -/
theorem lt32_1 {n : ℕ} (hn : n < cfg1.N) : n < 32 := lt_of_lt_of_eq hn (show cfg1.N = 32 from N_1)

/-- The left operand's block at point `n`, read at (p, k), is the array at (row p of the point's row block, offset k
    of its contraction block). -/
theorem lblk1_apply (c : Dev nD) (n : ℕ) (hn : n < cfg1.N) (p : Fin 1024) (k : Fin 2048) :
    lblk1 V c n hn (ix2 p k) = Aa1 V c (ix2 (brow1 n (lt32_1 hn) p) (bcol1 n k)) := by
  have e0 : win1_0.index ⟨n, hn⟩ (0 : Fin 2) = n / 4 := (idx1 ⟨n, hn⟩).1
  have e1 : win1_0.index ⟨n, hn⟩ (1 : Fin 2) = n % 4 := (idx1 ⟨n, hn⟩).2.1
  unfold lblk1 Aa1 iblk1
  rw [View.read_apply]
  show V c main_arg1 (((cfg1.win 0).blk ⟨n, hn⟩).view.emb (ix2 p k)) = V c main_arg1 _
  refine congrArg (V c main_arg1) ?_
  funext a; apply Fin.ext
  match a with
  | ⟨0, _⟩ => show win1_0.index ⟨n, hn⟩ (0 : Fin 2) * 1024 + 1 * p.val = 1024 * (n / 4) + p.val; rw [e0]; omega
  | ⟨1, _⟩ => show win1_0.index ⟨n, hn⟩ (1 : Fin 2) * 2048 + 1 * k.val = 2048 * (n % 4) + k.val; rw [e1]; omega

/-- The right operand's block at point `n`, read at (k, q), is the array at (offset k of the point's contraction
    block, q). -/
theorem rblk1_apply (c : Dev nD) (n : ℕ) (hn : n < cfg1.N) (k : Fin 2048) (q : Fin 512) :
    rblk1 V c n hn (ix2 k q) = Kt1 V c (ix2 (bcol1 n k) q) := by
  have e0 : win1_1.index ⟨n, hn⟩ (0 : Fin 2) = n % 4 := (idx1 ⟨n, hn⟩).2.2.1
  have e1 : win1_1.index ⟨n, hn⟩ (1 : Fin 2) = 0 := (idx1 ⟨n, hn⟩).2.2.2.1
  unfold rblk1 Kt1 iblk1
  rw [View.read_apply]
  show V c main_v2_1 (((cfg1.win 1).blk ⟨n, hn⟩).view.emb (ix2 k q)) = V c main_v2_1 _
  refine congrArg (V c main_v2_1) ?_
  funext a; apply Fin.ext
  match a with
  | ⟨0, _⟩ => show win1_1.index ⟨n, hn⟩ (0 : Fin 2) * 2048 + 1 * k.val = 2048 * (n % 4) + k.val; rw [e0]; omega
  | ⟨1, _⟩ => show win1_1.index ⟨n, hn⟩ (1 : Fin 2) * 512 + 1 * q.val = q.val; rw [e1]; omega

/-! ## The accumulator after a point, at an index -/

/-- What point `n` adds at (p, q): the product of its two blocks there. -/
def add1 (c : Dev nD) (n : ℕ) (hn : n < cfg1.N) (p : Fin 1024) (q : Fin 512) : EReal :=
  ∑ k : Fin 2048, Aa1 V c (ix2 (brow1 n (lt32_1 hn) p) (bcol1 n k)) * Kt1 V c (ix2 (bcol1 n k) q)

/-- One point's step at an index: at a point ≡ 0 (mod 4) the point's addend over zero, elsewhere over what the point
    before left. -/
theorem acc1_apply (c : Dev nD) (n : ℕ) (hn : n < cfg1.N) (p : Fin 1024) (q : Fin 512) :
    acc1 V c n hn (ix2 p q)
      = (if n % 4 = 0 then 0 else acc1 V c (n - 1) (pred_lt1 (Nat.le_of_lt hn)) (ix2 p q))
        + add1 V c n hn p q := by
  have hS : ∑ k : Fin 2048, lblk1 V c n hn (ix2 p k) * rblk1 V c n hn (ix2 k q) = add1 V c n hn p q :=
    Finset.sum_congr rfl fun k _ => by rw [lblk1_apply V c n hn p k, rblk1_apply V c n hn k q]
  by_cases h : n % 4 = 0
  · rw [if_pos h, acc1_reset V c ⟨n, hn⟩ h]
    refine (step1_apply (lblk1 V c n hn) (k1_pay1 (F := Ideal)) (rblk1 V c n hn) p q).trans ?_
    rw [zero1_apply, hS]
  · rw [if_neg h, acc1_step V c ⟨n, hn⟩ h]
    refine (step1_apply (lblk1 V c n hn) (acc1 V c (n - 1) (pred_lt1 (Nat.le_of_lt hn))) (rblk1 V c n hn) p q).trans ?_
    rw [hS]

/-- At a point ≡ 3 (mod 4) the accumulator holds, at (p, q), the whole product at (row p of the point's row block, q):
    the four addends of the points of its run, the four consecutive blocks of the contraction. -/
theorem acc1_last (c : Dev nD) (n : ℕ) (hn : n < cfg1.N) (h3 : n % 4 = 3) (p : Fin 1024) (q : Fin 512) :
    acc1 V c n hn (ix2 p q)
      = Cert.KSpec.keyMix (Aa1 V c) (Kt1 V c) (brow1 n (lt32_1 hn) p) q := by
  have hN : n < 32 := lt32_1 hn
  have l1 : n - 1 < cfg1.N := pred_lt1 (Nat.le_of_lt hn)
  have l2 : n - 1 - 1 < cfg1.N := pred_lt1 (Nat.le_of_lt l1)
  have l3 : n - 1 - 1 - 1 < cfg1.N := pred_lt1 (Nat.le_of_lt l2)
  rw [acc1_apply V c n hn p q, if_neg (by omega), acc1_apply V c (n - 1) l1 p q, if_neg (by omega),
    acc1_apply V c (n - 1 - 1) l2 p q, if_neg (by omega), acc1_apply V c (n - 1 - 1 - 1) l3 p q, if_pos (by omega), zero_add]
  unfold Cert.KSpec.keyMix
  rw [Cert.SumBlocks.sum_blocks 4 2048 8192 rfl, Fin.sum_univ_four]
  unfold add1
  have hb : ∀ (m : ℕ) (hm : m < 32), m / 4 = n / 4 → ∀ p, brow1 m hm p = brow1 n hN p := fun m hm e p => Fin.ext (by show 1024 * (m / 4) + p.val = 1024 * (n / 4) + p.val; rw [e])
  have hc : ∀ (m : ℕ) (j : Fin 4), m % 4 = j.val → ∀ k : Fin 2048, bcol1 m k = ⟨j.val * 2048 + k.val, Cert.SumBlocks.block_index_lt j k⟩ :=
    fun m j e k => Fin.ext (by show 2048 * (m % 4) + k.val = j.val * 2048 + k.val; rw [e]; omega)
  refine congrArg₂ (· + ·) (congrArg₂ (· + ·) (congrArg₂ (· + ·) ?_ ?_) ?_) ?_
  · refine Finset.sum_congr rfl fun k _ => ?_
    rw [hb (n - 1 - 1 - 1) (lt32_1 l3) (by omega) p, hc (n - 1 - 1 - 1) 0 (by show _ = 0; omega) k]
  · refine Finset.sum_congr rfl fun k _ => ?_
    rw [hb (n - 1 - 1) (lt32_1 l2) (by omega) p, hc (n - 1 - 1) 1 (by show _ = 1; omega) k]
  · refine Finset.sum_congr rfl fun k _ => ?_
    rw [hb (n - 1) (lt32_1 l1) (by omega) p, hc (n - 1) 2 (by show _ = 2; omega) k]
  · refine Finset.sum_congr rfl fun k _ => ?_
    rw [hc n 3 (by show _ = 3; omega) k]

/-! ## From the blocks to the result array -/

/-- The whole product of the two operand arrays as the call finds them: what the result array ends holding. -/
abbrev G1 (c : Dev nD) : S8192x512.Idx → EReal :=
  fun i => Cert.KSpec.keyMix (Aa1 V c) (Kt1 V c) (i 0) (i 1)

/-- What a point ≡ 3 (mod 4) writes back is its block of the whole product. -/
theorem flushed1_2 (c : Dev nD) (t : Fin cfg1.N) (hf : (cfg1.win 2).flush t = true) :
    (dat1 V c).flushed 2 t = ((cfg1.win 2).blk t).view.read (Elt Ideal) (G1 V c) := by
  have h3 : t.val % 4 = 3 := (flush1_2 t).mp hf
  have e0 : win1_2.index t (0 : Fin 2) = t.val / 4 := (idx1 t).2.2.2.2.1
  have e1 : win1_2.index t (1 : Fin 2) = 0 := (idx1 t).2.2.2.2.2
  show (cfg1.win 2).cut (grid1.coords t) ((dat1 V c).after 2 t) = _
  rw [after1_2]
  funext y
  obtain ⟨p, q, rfl⟩ : ∃ (p : Fin 1024) (q : Fin 512), y = ix2 p q := ⟨y 0, y 1, eq_ix2 y⟩
  refine (acc1_last V c t.val t.isLt h3 p q).trans ?_
  rw [View.read_apply]
  show Cert.KSpec.keyMix _ _ _ _ = Cert.KSpec.keyMix _ _ ((((cfg1.win 2).blk t).view.emb (ix2 p q)) 0) ((((cfg1.win 2).blk t).view.emb (ix2 p q)) 1)
  refine congrArg₂ (Cert.KSpec.keyMix _ _) (Fin.ext ?_) (Fin.ext ?_)
  · show 1024 * (t.val / 4) + p.val = win1_2.index t (0 : Fin 2) * 1024 + 1 * p.val; rw [e0]; omega
  · show q.val = win1_2.index t (1 : Fin 2) * 512 + 1 * q.val; rw [e1]; omega

/-- An index of the result array is in point `t`'s block iff each coordinate is in the block's range on its axis. -/
theorem mem_blk1_2 (t : Fin cfg1.N) (i : S8192x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v3).slice (win1_2.rect t)).set ↔ _
  rw [View.set_slice_whole, Rect.mem_set_unit]
  exact Iff.rfl

/-- Every row r of the result array is written back by the last point of the run of its row block: point
    4 · (r / 1024) + 3. -/
theorem cover1_2 (i : S8192x512.Idx) : ∃ t : Fin cfg1.N, (cfg1.win 2).flush t = true ∧ i ∈ ((cfg1.win 2).blk t).view.set := by
  have hi0 : (i 0).val < 8192 := (i 0).isLt
  have hi1 : (i 1).val < 512 := (i 1).isLt
  have hN : cfg1.N = 32 := N_1
  obtain ⟨t, ht⟩ : ∃ t : Fin cfg1.N, t.val = 4 * ((i 0).val / 1024) + 3 := ⟨⟨_, by rw [hN]; omega⟩, rfl⟩
  have e0 : win1_2.index t (0 : Fin 2) = t.val / 4 := (idx1 t).2.2.2.2.1
  have e1 : win1_2.index t (1 : Fin 2) = 0 := (idx1 t).2.2.2.2.2
  refine ⟨t, (flush1_2 t).mpr (by omega), ?_⟩
  rw [mem_blk1_2]
  intro a
  match a with
  | ⟨0, _⟩ => show win1_2.index t (0 : Fin 2) * 1024 ≤ (i 0).val ∧ (i 0).val < win1_2.index t (0 : Fin 2) * 1024 + 1024; rw [e0]; omega
  | ⟨1, _⟩ => show win1_2.index t (1 : Fin 2) * 512 ≤ (i 1).val ∧ (i 1).val < win1_2.index t (1 : Fin 2) * 512 + 512; rw [e1]; omega

/-- THE RESULT ARRAY after the call: the whole product of the two operand arrays as the call finds them. -/
theorem final1_2 (c : Dev nD) :
    (dat1 V c).arrAt 2 cfg1.N = fun i : (⟨2, ![8192, 512]⟩ : Shape).Idx =>
      Cert.KSpec.keyMix (φa := .f32) (φk := .bf16) (V c main_arg1) (V c main_v2_1) (i 0) (i 1) :=
  (dat1 V c).arrAt_eq_of_cover 2 (G1 V c) (flushed1_2 V c) cover1_2

end Value

end Cert.KernelIdeal.HandV

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.I.V2.lean ====
/- Region 2 of @main (the attention kernel) on the extended reals: what its two output arrays hold when the region ends,
   as functions of the five arrays it reads. The body's two payloads are read at an index (a product against the rows
   of the keys, a row maximum and a row sum kept as columns, two ordinary products, a bias row), then against the rows
   of the arrays; each point's write-back is its block of one whole-array function, and the blocks cover the arrays:
   row r lies in the block of point r / 64. -/
import proofs.«108860_j55594056680006_2_alg».proof.Proof.I.R2
import proofs.«108860_j55594056680006_2_alg».proof.Proof.KSpec
import proofs.«108860_j55594056680006_2_alg».proof.Proof.LibMatmulRows
import proofs.«108860_j55594056680006_2_alg».proof.Proof.LibPlainMatmul
import proofs.«108860_j55594056680006_2_alg».proof.Proof.LibRowMax
import proofs.«108860_j55594056680006_2_alg».proof.Proof.LibRowOps
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

/-! ## The first payload at an index: the row softmax of the scaled logits -/

/-- The logits vector of the body: the query block, widened and scaled, against the ROWS of the keys. -/
def lv (x0 : Vec Ideal S64x512 .bf16) (x5 : Vec Ideal S8192x512 .f32) : FVec Ideal S64x8192 .f32 :=
  matmul dot_S64x512_S8192x512_S64x8192_1_1_0_0_n_n (some .fp32)
    (mulf (extf .f32 (shapeCast S64x512 x0 shapeCasts_S64x512_S64x512 : FVec Ideal S64x512 .bf16) bitsLt_bf16_f32)
      (broadcast S64x512 (Scalar.ofBits (F := Ideal) .f32 0x3D3504F3#32)) : FVec Ideal S64x512 .f32)
    (shapeCast S8192x512 x5 shapeCasts_S8192x512_S8192x512 : FVec Ideal S8192x512 .f32)
    (constant (F := Ideal) S64x8192 .f32 0x00000000#32)

/-- The shifted exponentials: exp of the logits less their row maximum. -/
def ev (x0 : Vec Ideal S64x512 .bf16) (x5 : Vec Ideal S8192x512 .f32) : FVec Ideal S64x8192 .f32 :=
  exp (subf (lv x0 x5) (broadcastTo S64x8192 (shapeCast S64x1
    (multiReduction (F := Ideal) .maximumf [1] S64 (lv x0 x5) 0xFF800000#32 reduces_S64x8192_S64 (.inl rfl) rfl)
    shapeCasts_S64_S64x1) broadcasts_S64x1_S64x8192))

/-- The payload is the shifted exponentials over their row sums. -/
theorem pay1_eq (x0 : Vec Ideal S64x512 .bf16) (x5 : Vec Ideal S8192x512 .f32) :
    k2_pay1 (F := Ideal) x0 x5 = divf (ev x0 x5) (broadcastTo S64x8192 (shapeCast S64x1
      (multiReduction (F := Ideal) .add [1] S64 (ev x0 x5) 0x00000000#32 reduces_S64x8192_S64 (.inl rfl) rfl)
      shapeCasts_S64_S64x1) broadcasts_S64x1_S64x8192) := rfl

/-- The logit of query row p of the block against key row s. -/
def lgt (x0 : Vec Ideal S64x512 .bf16) (x5 : Vec Ideal S8192x512 .f32) (p : Fin 64) (s : Fin 8192) : EReal :=
  ∑ d : Fin 512, (x0 (ix2 p d) * Cert.Spec.scale) * x5 (ix2 s d)

theorem lv_apply (x0 : Vec Ideal S64x512 .bf16) (x5 : Vec Ideal S8192x512 .f32) (p : Fin 64) (s : Fin 8192) :
    lv x0 x5 (ix2 p s) = lgt x0 x5 p s := by
  unfold lv lgt
  refine (Cert.MatmulRows.zero_acc_apply dot_S64x512_S8192x512_S64x8192_1_1_0_0_n_n_wf (some .fp32) _ _ p s).trans ?_
  refine Finset.sum_congr rfl fun d _ => ?_
  rw [shapeCast_self, shapeCast_self]
  rfl

/-- The maximum of a row of logits, from −∞. -/
def lgtMax (x0 : Vec Ideal S64x512 .bf16) (x5 : Vec Ideal S8192x512 .f32) (p : Fin 64) : EReal :=
  (Finset.univ : Finset (Fin 8192)).fold max Cert.Spec.negInf (fun s => lgt x0 x5 p s)

/-- The shifted exponential of a logit. -/
def lgtExp (x0 : Vec Ideal S64x512 .bf16) (x5 : Vec Ideal S8192x512 .f32) (p : Fin 64) (s : Fin 8192) : EReal :=
  Ideal.exp (lgt x0 x5 p s - lgtMax x0 x5 p)

theorem ev_apply (x0 : Vec Ideal S64x512 .bf16) (x5 : Vec Ideal S8192x512 .f32) (p : Fin 64) (s : Fin 8192) :
    ev x0 x5 (ix2 p s) = lgtExp x0 x5 p s := by
  unfold ev lgtExp lgtMax
  show Ideal.exp (lv x0 x5 (ix2 p s) - broadcastTo S64x8192 (shapeCast S64x1 _ shapeCasts_S64_S64x1) broadcasts_S64x1_S64x8192 (ix2 p s)) = _
  rw [Cert.RowOps.column_repeated_apply, Cert.RowMax.max_over_columns_apply, lv_apply]
  simp only [lv_apply]

/-- The first payload at (p, s): the softmax weight of key row s for query row p of the block. -/
theorem pay1_apply (x0 : Vec Ideal S64x512 .bf16) (x5 : Vec Ideal S8192x512 .f32) (p : Fin 64) (s : Fin 8192) :
    k2_pay1 (F := Ideal) x0 x5 (ix2 p s) = Ideal.div (lgtExp x0 x5 p s) (∑ s' : Fin 8192, lgtExp x0 x5 p s') := by
  rw [pay1_eq, divf_apply, Cert.RowOps.column_repeated_apply, Cert.RowOps.sum_over_columns_apply, ev_apply]
  simp only [ev_apply]

/-! ## The second payload at an index: weights times values, projected, plus the bias row -/

/-- The weights of the block, narrowed, times the values. -/
def mv (x0 : Vec Ideal S64x512 .bf16) (x5 : Vec Ideal S8192x512 .f32) (x19 : Vec Ideal S8192x512 .bf16) : FVec Ideal S64x512 .f32 :=
  matmul dot_S64x8192_S8192x512_S64x512_1_0_0_1_n_n none
    (truncf .bf16 (k2_pay1 (F := Ideal) x0 x5) bitsLt_bf16_f32 : FVec Ideal S64x8192 .bf16)
    (shapeCast S8192x512 x19 shapeCasts_S8192x512_S8192x512 : FVec Ideal S8192x512 .bf16)
    (constant (F := Ideal) S64x512 .f32 0x00000000#32)

/-- The payload is that product, narrowed, times the output weights, plus the bias row repeated down the rows. -/
theorem pay2_eq (x0 : Vec Ideal S64x512 .bf16) (x5 : Vec Ideal S8192x512 .f32) (x19 : Vec Ideal S8192x512 .bf16)
    (x23 : Vec Ideal S512x512 .bf16) (x26 : Vec Ideal S1x512 .f32) :
    k2_pay2 (F := Ideal) x0 x5 x19 x23 x26 = addf
      (matmul dot_S64x512_S512x512_S64x512_1_0_0_1_n_n none
        (truncf .bf16 (mv x0 x5 x19) bitsLt_bf16_f32 : FVec Ideal S64x512 .bf16)
        (shapeCast S512x512 x23 shapeCasts_S512x512_S512x512 : FVec Ideal S512x512 .bf16)
        (constant (F := Ideal) S64x512 .f32 0x00000000#32))
      (broadcastTo S64x512 (shapeCast S1x512 x26 shapeCasts_S1x512_S1x512 : FVec Ideal S1x512 .f32) broadcasts_S1x512_S64x512) := rfl

theorem mv_apply (x0 : Vec Ideal S64x512 .bf16) (x5 : Vec Ideal S8192x512 .f32) (x19 : Vec Ideal S8192x512 .bf16) (p : Fin 64) (d : Fin 512) :
    mv x0 x5 x19 (ix2 p d) = ∑ s : Fin 8192, k2_pay1 (F := Ideal) x0 x5 (ix2 p s) * x19 (ix2 s d) := by
  unfold mv
  refine (Cert.PlainMatmul.zero_acc_apply dot_S64x8192_S8192x512_S64x512_1_0_0_1_n_n_wf none _ _ p d).trans ?_
  refine Finset.sum_congr rfl fun s _ => ?_
  rw [shapeCast_self]
  rfl

/-- The second payload at (p, e). -/
theorem pay2_apply (x0 : Vec Ideal S64x512 .bf16) (x5 : Vec Ideal S8192x512 .f32) (x19 : Vec Ideal S8192x512 .bf16)
    (x23 : Vec Ideal S512x512 .bf16) (x26 : Vec Ideal S1x512 .f32) (p : Fin 64) (e : Fin 512) :
    k2_pay2 (F := Ideal) x0 x5 x19 x23 x26 (ix2 p e)
      = (∑ d : Fin 512, (∑ s : Fin 8192, k2_pay1 (F := Ideal) x0 x5 (ix2 p s) * x19 (ix2 s d)) * x23 (ix2 d e))
        + x26 (ix2 (0 : Fin 1) e) := by
  rw [pay2_eq, addf_apply, broadcastTo_1b_ab_apply, shapeCast_self, shapeCast_self]
  congr 1
  refine (Cert.PlainMatmul.zero_acc_apply (φ₁ := .bf16) (φ₂ := .bf16) dot_S64x512_S512x512_S64x512_1_0_0_1_n_n_wf none
    (truncf .bf16 (mv x0 x5 x19) bitsLt_bf16_f32) x23 p e).trans ?_
  refine Finset.sum_congr rfl fun d _ => ?_
  rw [truncf_apply, mv_apply]

/-! ## The payloads against the arrays' rows -/

/-- With the query block's row p being row r of the queries and the key buffer the keys, the first payload at (p, s)
    is the softmax weight of (r, s). -/
theorem pay1_rows (x0 : Vec Ideal S64x512 .bf16) (x5 : Vec Ideal S8192x512 .f32)
    (Q : FVec Ideal ⟨2, ![8192, 512]⟩ .bf16) (Kn : FVec Ideal ⟨2, ![8192, 512]⟩ .f32) (p : Fin 64) (r : Fin 8192)
    (h0 : ∀ d : Fin 512, x0 (ix2 p d) = Q (ix2 r d)) (h5 : ∀ (s : Fin 8192) (d : Fin 512), x5 (ix2 s d) = Kn (ix2 s d))
    (s : Fin 8192) : k2_pay1 (F := Ideal) x0 x5 (ix2 p s) = Cert.KSpec.attn Q Kn r s := by
  have hl : ∀ s', lgt x0 x5 p s' = Cert.KSpec.lg Q Kn r s' := fun s' => by
    unfold lgt Cert.KSpec.lg
    exact Finset.sum_congr rfl fun d _ => by rw [h0, h5]
  have hm : lgtMax x0 x5 p = Cert.KSpec.lgMax Q Kn r := by
    unfold lgtMax Cert.KSpec.lgMax
    simp only [hl]
  have he : ∀ s', lgtExp x0 x5 p s' = Cert.KSpec.lgExp Q Kn r s' := fun s' => by
    unfold lgtExp Cert.KSpec.lgExp
    rw [hl, hm]
  rw [pay1_apply]
  unfold Cert.KSpec.attn
  simp only [he]

/-- And the second payload at (p, e) is the output of (r, e). -/
theorem pay2_rows (x0 : Vec Ideal S64x512 .bf16) (x5 : Vec Ideal S8192x512 .f32) (x19 : Vec Ideal S8192x512 .bf16)
    (x23 : Vec Ideal S512x512 .bf16) (x26 : Vec Ideal S1x512 .f32)
    (Q : FVec Ideal ⟨2, ![8192, 512]⟩ .bf16) (Kn : FVec Ideal ⟨2, ![8192, 512]⟩ .f32) (Vt : FVec Ideal ⟨2, ![8192, 512]⟩ .bf16)
    (Wot : FVec Ideal ⟨2, ![512, 512]⟩ .bf16) (Bot : FVec Ideal ⟨2, ![1, 512]⟩ .f32) (p : Fin 64) (r : Fin 8192)
    (h0 : ∀ d : Fin 512, x0 (ix2 p d) = Q (ix2 r d)) (h5 : ∀ (s : Fin 8192) (d : Fin 512), x5 (ix2 s d) = Kn (ix2 s d))
    (h19 : ∀ (s : Fin 8192) (d : Fin 512), x19 (ix2 s d) = Vt (ix2 s d))
    (h23 : ∀ (d e : Fin 512), x23 (ix2 d e) = Wot (ix2 d e))
    (h26 : ∀ e : Fin 512, x26 (ix2 (0 : Fin 1) e) = Bot (ix2 (0 : Fin 1) e))
    (e : Fin 512) : k2_pay2 (F := Ideal) x0 x5 x19 x23 x26 (ix2 p e) = Cert.KSpec.attnOut Q Kn Vt Wot Bot r e := by
  rw [pay2_apply]
  unfold Cert.KSpec.attnOut
  simp only [pay1_rows x0 x5 Q Kn p r h0 h5, h19, h23, h26]

/-! ## From blocks to the arrays -/

section Blocks
variable (V : (c : Dev nD) → (b : Ref sig .tc) → Buf (Elt Ideal) ((c : Thread nD τ).loc b))

/-- The arrays the region reads, as it finds them. -/
abbrev Qa (c : Dev nD) : FVec Ideal ⟨2, ![8192, 512]⟩ .bf16 := V c main_v2_0
abbrev Kna (c : Dev nD) : FVec Ideal ⟨2, ![8192, 512]⟩ .f32 := V c main_v3
abbrev Vta (c : Dev nD) : FVec Ideal ⟨2, ![8192, 512]⟩ .bf16 := V c main_v2_2
abbrev Wota (c : Dev nD) : FVec Ideal ⟨2, ![512, 512]⟩ .bf16 := V c main_v4
abbrev Bota (c : Dev nD) : FVec Ideal ⟨2, ![1, 512]⟩ .f32 := V c main_v5

theorem hz : (![0, 0] : Fin 2 → Nat) = fun _ => 0 := funext fun a => by fin_cases a <;> rfl

/-- The printed index maps, decided over the grid: the query window and both output windows are on row block t, column
    block 0; the four whole-array windows stay on block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row p of the query block at point t is row 64·t + p of the queries. -/
theorem qblk_apply (c : Dev nD) (t : Fin cfg2.N) (p : Fin 64) (r : Fin 8192) (hr : r.val = t.val * 64 + p.val) (d : Fin 512) :
    iblk2 V c 0 t (ix2 p d) = Qa V c (ix2 r d) := by
  obtain ⟨e0, e1, -⟩ := idx_facts t
  show V c main_v2_0 (((cfg2.win 0).blk t).view.emb (ix2 p d)) = V c main_v2_0 (ix2 r d)
  refine congrArg (V c main_v2_0) (funext fun a => Fin.ext ?_)
  match a with
  | ⟨0, _⟩ => show win2_0.index t (0 : Fin 2) * 64 + 1 * p.val = r.val; omega
  | ⟨1, _⟩ => show win2_0.index t (1 : Fin 2) * 512 + 1 * d.val = d.val; omega

/-- The whole-array windows hold their arrays at every point: block (0, 0) of the full extent. -/
theorem kblk_apply (c : Dev nD) (t : Fin cfg2.N) (s : Fin 8192) (d : Fin 512) : iblk2 V c 1 t (ix2 s d) = Kna V c (ix2 s d) := by
  obtain ⟨-, -, e0, e1, -⟩ := idx_facts t
  show V c main_v3 (((cfg2.win 1).blk t).view.emb (ix2 s d)) = V c main_v3 (ix2 s d)
  refine congrArg (V c main_v3) (funext fun a => Fin.ext ?_)
  match a with
  | ⟨0, _⟩ => show win2_1.index t (0 : Fin 2) * 8192 + 1 * s.val = s.val; omega
  | ⟨1, _⟩ => show win2_1.index t (1 : Fin 2) * 512 + 1 * d.val = d.val; omega
theorem vblk_apply (c : Dev nD) (t : Fin cfg2.N) (s : Fin 8192) (d : Fin 512) : iblk2 V c 2 t (ix2 s d) = Vta V c (ix2 s d) := by
  obtain ⟨-, -, -, -, e0, e1, -⟩ := idx_facts t
  show V c main_v2_2 (((cfg2.win 2).blk t).view.emb (ix2 s d)) = V c main_v2_2 (ix2 s d)
  refine congrArg (V c main_v2_2) (funext fun a => Fin.ext ?_)
  match a with
  | ⟨0, _⟩ => show win2_2.index t (0 : Fin 2) * 8192 + 1 * s.val = s.val; omega
  | ⟨1, _⟩ => show win2_2.index t (1 : Fin 2) * 512 + 1 * d.val = d.val; omega
theorem wblk_apply (c : Dev nD) (t : Fin cfg2.N) (d e : Fin 512) : iblk2 V c 3 t (ix2 d e) = Wota V c (ix2 d e) := by
  obtain ⟨-, -, -, -, -, -, e0, e1, -⟩ := idx_facts t
  show V c main_v4 (((cfg2.win 3).blk t).view.emb (ix2 d e)) = V c main_v4 (ix2 d e)
  refine congrArg (V c main_v4) (funext fun a => Fin.ext ?_)
  match a with
  | ⟨0, _⟩ => show win2_3.index t (0 : Fin 2) * 512 + 1 * d.val = d.val; omega
  | ⟨1, _⟩ => show win2_3.index t (1 : Fin 2) * 512 + 1 * e.val = e.val; omega
theorem bblk_apply (c : Dev nD) (t : Fin cfg2.N) (e : Fin 512) : iblk2 V c 4 t (ix2 (0 : Fin 1) e) = Bota V c (ix2 (0 : Fin 1) e) := by
  obtain ⟨-, -, -, -, -, -, -, -, e0, e1, -⟩ := idx_facts t
  show V c main_v5 (((cfg2.win 4).blk t).view.emb (ix2 (0 : Fin 1) e)) = V c main_v5 (ix2 (0 : Fin 1) e)
  refine congrArg (V c main_v5) (funext fun a => Fin.ext ?_)
  match a with
  | ⟨0, _⟩ => show win2_4.index t (0 : Fin 2) * 1 + 1 * 0 = 0; omega
  | ⟨1, _⟩ => show win2_4.index t (1 : Fin 2) * 512 + 1 * e.val = e.val; omega

/-- What point t writes back to the weights array is block t of the softmax weights of the queries against the keys. -/
theorem flushed5_eq (c : Dev nD) (t : Fin cfg2.N) :
    (dat2 V c).flushed 5 t = ((cfg2.win 5).blk t).view.read (Elt Ideal)
      (fun i : (⟨2, ![8192, 8192]⟩ : Shape).Idx => Cert.KSpec.attn (Qa V c) (Kna V c) (i 0) (i 1)) := by
  show (cfg2.win 5).cut (grid2.coords t) ((dat2 V c).after 5 t) = _
  rw [after2_5]
  unfold out2_5
  rw [View.canon_unit_zero hz]
  simp only [View.ld_unit_zero (S := S64x512) hz, View.ld_unit_zero (S := S8192x512) hz]
  obtain ⟨-, -, -, -, -, -, -, -, -, -, e0, e1, -⟩ := idx_facts t
  funext j
  show k2_pay1 (F := Ideal) (iblk2 V c 0 t) (iblk2 V c 1 t) j
    = Cert.KSpec.attn (Qa V c) (Kna V c) ((((cfg2.win 5).blk t).view.emb j) 0) ((((cfg2.win 5).blk t).view.emb j) 1)
  have hj0 : (j 0).val < 64 := (j 0).isLt
  have hr : ((((cfg2.win 5).blk t).view.emb j) 0).val = t.val * 64 + (j 0).val := by
    show win2_5.index t (0 : Fin 2) * 64 + 1 * (j 0).val = _; omega
  have hs : (j 1 : Fin 8192) = (((cfg2.win 5).blk t).view.emb j) 1 := Fin.ext (by
    show (j 1).val = win2_5.index t (1 : Fin 2) * 8192 + 1 * (j 1).val; omega)
  refine (congrArg (k2_pay1 (F := Ideal) (iblk2 V c 0 t) (iblk2 V c 1 t)) (eq_ix2 (n0 := 64) (n1 := 8192) j)).trans ?_
  refine (pay1_rows (iblk2 V c 0 t) (iblk2 V c 1 t) (Qa V c) (Kna V c) (j 0) ((((cfg2.win 5).blk t).view.emb j) 0)
    (fun d => qblk_apply V c t (j 0) _ hr d) (fun s d => kblk_apply V c t s d) (j 1)).trans ?_
  exact congrArg (Cert.KSpec.attn (Qa V c) (Kna V c) _) hs

/-- What point t writes back to the output array is block t of the outputs. -/
theorem flushed6_eq (c : Dev nD) (t : Fin cfg2.N) :
    (dat2 V c).flushed 6 t = ((cfg2.win 6).blk t).view.read (Elt Ideal)
      (fun i : (⟨2, ![8192, 512]⟩ : Shape).Idx => Cert.KSpec.attnOut (Qa V c) (Kna V c) (Vta V c) (Wota V c) (Bota V c) (i 0) (i 1)) := by
  show (cfg2.win 6).cut (grid2.coords t) ((dat2 V c).after 6 t) = _
  rw [after2_6]
  unfold out2_6
  rw [View.canon_unit_zero hz]
  simp only [View.ld_unit_zero (S := S64x512) hz, View.ld_unit_zero (S := S8192x512) hz, View.ld_unit_zero (S := S512x512) hz,
    View.ld_unit_zero (S := S1x512) hz]
  obtain ⟨-, -, -, -, -, -, -, -, -, -, -, -, e0, e1⟩ := idx_facts t
  funext j
  show k2_pay2 (F := Ideal) (iblk2 V c 0 t) (iblk2 V c 1 t) (iblk2 V c 2 t) (iblk2 V c 3 t) (iblk2 V c 4 t) j
    = Cert.KSpec.attnOut (Qa V c) (Kna V c) (Vta V c) (Wota V c) (Bota V c)
        ((((cfg2.win 6).blk t).view.emb j) 0) ((((cfg2.win 6).blk t).view.emb j) 1)
  have hj0 : (j 0).val < 64 := (j 0).isLt
  have hr : ((((cfg2.win 6).blk t).view.emb j) 0).val = t.val * 64 + (j 0).val := by
    show win2_6.index t (0 : Fin 2) * 64 + 1 * (j 0).val = _; omega
  have he : (j 1 : Fin 512) = (((cfg2.win 6).blk t).view.emb j) 1 := Fin.ext (by
    show (j 1).val = win2_6.index t (1 : Fin 2) * 512 + 1 * (j 1).val; omega)
  refine (congrArg (k2_pay2 (F := Ideal) (iblk2 V c 0 t) (iblk2 V c 1 t) (iblk2 V c 2 t) (iblk2 V c 3 t) (iblk2 V c 4 t))
    (eq_ix2 (n0 := 64) (n1 := 512) j)).trans ?_
  refine (pay2_rows (iblk2 V c 0 t) (iblk2 V c 1 t) (iblk2 V c 2 t) (iblk2 V c 3 t) (iblk2 V c 4 t)
    (Qa V c) (Kna V c) (Vta V c) (Wota V c) (Bota V c) (j 0) ((((cfg2.win 6).blk t).view.emb j) 0)
    (fun d => qblk_apply V c t (j 0) _ hr d) (fun s d => kblk_apply V c t s d) (fun s d => vblk_apply V c t s d)
    (fun d e => wblk_apply V c t d e) (fun e => bblk_apply V c t e) (j 1)).trans ?_
  exact congrArg (Cert.KSpec.attnOut (Qa V c) (Kna V c) (Vta V c) (Wota V c) (Bota V c) _) he

/-! ## The cover: row r of either output array is in the block of point r / 64 -/

/-- An index of the weights array is in point t's block iff each coordinate is in the block's range on its axis. -/
theorem mem_blk5 (t : Fin cfg2.N) (i : (⟨2, ![8192, 8192]⟩ : Shape).Idx) :
    i ∈ ((cfg2.win 5).blk t).view.set ↔ ∀ a : Fin 2, win2_5.index t a * S64x8192.size a ≤ (i a).val ∧ (i a).val < win2_5.index t a * S64x8192.size a + S64x8192.size a := by
  show i ∈ ((View.whole main_v6_0).slice (win2_5.rect t)).set ↔ _
  rw [View.set_slice_whole, Rect.mem_set_unit]
  exact Iff.rfl

/-- The same for the output array. -/
theorem mem_blk6 (t : Fin cfg2.N) (i : (⟨2, ![8192, 512]⟩ : Shape).Idx) :
    i ∈ ((cfg2.win 6).blk t).view.set ↔ ∀ a : Fin 2, win2_6.index t a * S64x512.size a ≤ (i a).val ∧ (i a).val < win2_6.index t a * S64x512.size a + S64x512.size a := by
  show i ∈ ((View.whole main_v6_1).slice (win2_6.rect t)).set ↔ _
  rw [View.set_slice_whole, Rect.mem_set_unit]
  exact Iff.rfl

theorem cover5 (i : (⟨2, ![8192, 8192]⟩ : Shape).Idx) :
    ∃ t : Fin cfg2.N, (cfg2.win 5).flush t = true ∧ i ∈ ((cfg2.win 5).blk t).view.set := by
  have hi0 : (i 0).val < 8192 := (i 0).isLt
  have hi1 : (i 1).val < 8192 := (i 1).isLt
  have hN : (i 0).val / 64 < cfg2.N := by show _ < grid2.N; rw [N_2]; omega
  obtain ⟨-, -, -, -, -, -, -, -, -, -, e0, e1, -⟩ := idx_facts ⟨(i 0).val / 64, hN⟩
  have e0' : win2_5.index ⟨(i 0).val / 64, hN⟩ (0 : Fin 2) = (i 0).val / 64 := e0
  refine ⟨⟨(i 0).val / 64, hN⟩, flush2_5 _, ?_⟩
  rw [mem_blk5]
  intro a
  match a with
  | ⟨0, _⟩ =>
    show win2_5.index ⟨(i 0).val / 64, hN⟩ (0 : Fin 2) * 64 ≤ (i 0).val ∧ (i 0).val < win2_5.index ⟨(i 0).val / 64, hN⟩ (0 : Fin 2) * 64 + 64
    omega
  | ⟨1, _⟩ =>
    show win2_5.index ⟨(i 0).val / 64, hN⟩ (1 : Fin 2) * 8192 ≤ (i 1).val ∧ (i 1).val < win2_5.index ⟨(i 0).val / 64, hN⟩ (1 : Fin 2) * 8192 + 8192
    omega

theorem cover6 (i : (⟨2, ![8192, 512]⟩ : Shape).Idx) :
    ∃ t : Fin cfg2.N, (cfg2.win 6).flush t = true ∧ i ∈ ((cfg2.win 6).blk t).view.set := by
  have hi0 : (i 0).val < 8192 := (i 0).isLt
  have hi1 : (i 1).val < 512 := (i 1).isLt
  have hN : (i 0).val / 64 < cfg2.N := by show _ < grid2.N; rw [N_2]; omega
  obtain ⟨-, -, -, -, -, -, -, -, -, -, -, -, e0, e1⟩ := idx_facts ⟨(i 0).val / 64, hN⟩
  have e0' : win2_6.index ⟨(i 0).val / 64, hN⟩ (0 : Fin 2) = (i 0).val / 64 := e0
  refine ⟨⟨(i 0).val / 64, hN⟩, flush2_6 _, ?_⟩
  rw [mem_blk6]
  intro a
  match a with
  | ⟨0, _⟩ =>
    show win2_6.index ⟨(i 0).val / 64, hN⟩ (0 : Fin 2) * 64 ≤ (i 0).val ∧ (i 0).val < win2_6.index ⟨(i 0).val / 64, hN⟩ (0 : Fin 2) * 64 + 64
    omega
  | ⟨1, _⟩ =>
    show win2_6.index ⟨(i 0).val / 64, hN⟩ (1 : Fin 2) * 512 ≤ (i 1).val ∧ (i 1).val < win2_6.index ⟨(i 0).val / 64, hN⟩ (1 : Fin 2) * 512 + 512
    omega

/-! ## The two output arrays when the region ends -/

/-- The weights array ends holding the row softmax of the scaled queries against the keys. -/
theorem final2_5 (c : Dev nD) :
    (dat2 V c).arrAt 5 cfg2.N = fun i : (⟨2, ![8192, 8192]⟩ : Shape).Idx => Cert.KSpec.attn (Qa V c) (Kna V c) (i 0) (i 1) :=
  (dat2 V c).arrAt_eq_of_cover 5 _ (fun t _ => flushed5_eq V c t) cover5

/-- The output array ends holding the weights times the values, projected, plus the bias. -/
theorem final2_6 (c : Dev nD) :
    (dat2 V c).arrAt 6 cfg2.N = fun i : (⟨2, ![8192, 512]⟩ : Shape).Idx =>
      Cert.KSpec.attnOut (Qa V c) (Kna V c) (Vta V c) (Wota V c) (Bota V c) (i 0) (i 1) :=
  (dat2 V c).arrAt_eq_of_cover 6 _ (fun t _ => flushed6_eq V c t) cover6

end Blocks

end Cert.KernelIdeal.HandV

end
-- ==== Proof.LibERealSum.lean ====
/-
  General laws of finite sums of extended reals, with no finiteness asked of the terms.
  Multiplication on the extended reals does not distribute over addition in general (∞ - ∞), but a factor
  that is nonnegative and not +∞ does, on either side; so such a factor moves across any finite sum. This
  is what lets a scale folded into one operand of a contraction (x · c inside the sum) meet the same scale
  applied to the contraction's result (the sum times c, or the sum divided by 1/c) without a precondition
  on the inputs. Also: a sum over `Fin (m * n)` as a double sum over `m` blocks of `n`.
-/
import Mathlib.Data.EReal.Operations
import Mathlib.Algebra.BigOperators.Fin
import Mathlib.Logic.Equiv.Fin.Basic

namespace Cert.Lib.ERealSum

open scoped BigOperators

/-- A nonnegative finite factor on the right moves across a finite sum of extended reals. -/
theorem sum_mul_const {ι : Type*} (t : Finset ι) (f : ι → EReal) {c : EReal} (h0 : 0 ≤ c) (ht : c ≠ ⊤) :
    (∑ k ∈ t, f k) * c = ∑ k ∈ t, f k * c := by
  classical
  induction t using Finset.induction_on with
  | empty => simp
  | insert a t ha ih =>
    rw [Finset.sum_insert ha, Finset.sum_insert ha, EReal.right_distrib_of_nonneg_of_ne_top h0 ht, ih]

/-- The same with the factor on the left. -/
theorem mul_sum_const {ι : Type*} (t : Finset ι) (f : ι → EReal) {c : EReal} (h0 : 0 ≤ c) (ht : c ≠ ⊤) :
    c * (∑ k ∈ t, f k) = ∑ k ∈ t, c * f k :=
  (EReal.mul_comm _ _).trans
    ((sum_mul_const t f h0 ht).trans (Finset.sum_congr rfl fun k _ => EReal.mul_comm _ _))

/-- A sum over `Fin (m * n)` is the sum over the `m` blocks of the sums over their `n` entries: entry `i` of
    block `c` is position `i + n * c`. -/
theorem sum_fin_blocks {M : Type*} [AddCommMonoid M] (m n : ℕ) (f : Fin (m * n) → M) :
    ∑ j : Fin (m * n), f j = ∑ c : Fin m, ∑ i : Fin n, f (finProdFinEquiv (c, i)) := by
  rw [← Equiv.sum_comp (finProdFinEquiv (m := m) (n := n)) f, Fintype.sum_prod_type]

end Cert.Lib.ERealSum
-- ==== Proof.Bridge.lean ====
/-
  The kernel's three launches, composed, compute the specification.

  The projection launch leaves the three column blocks of x·W + b (the bias kept as a row); the key launch
  multiplies the adjacency matrix into the key block; the attention launch forms the row softmax of the
  logits and the output projection. The only law used beyond unfolding is that the scale c, a nonnegative
  finite constant, moves across a finite sum of extended reals: Σ_d (q_d · c) · k_d = (Σ_d q_d · k_d) · c.
  No finiteness of the inputs is needed.
-/
import proofs.«108860_j55594056680006_2_alg».proof.Proof.Spec
import proofs.«108860_j55594056680006_2_alg».proof.Proof.KSpec
import proofs.«108860_j55594056680006_2_alg».proof.Proof.LibERealSum

noncomputable section

namespace Cert.Bridge

open Idealize.ShloMosaic Idealize.ShloMosaic.ValueIdx Cert.Spec Cert.KSpec

variable (x : FVec Ideal ⟨2, ![8192, 512]⟩ .f32) (A : FVec Ideal ⟨2, ![8192, 8192]⟩ .f32)
  (W : FVec Ideal ⟨2, ![512, 1536]⟩ .f32) (b : FVec Ideal ⟨1, ![1536]⟩ .f32)
  (Wo : FVec Ideal ⟨2, ![512, 512]⟩ .f32) (bo : FVec Ideal ⟨1, ![512]⟩ .f32)

/-- The projection bias kept as a row. -/
abbrev Bt : FVec Ideal ⟨2, ![1, 1536]⟩ .f32 := fun i => b (ix1 (i 1))
/-- The output bias kept as a row. -/
abbrev Bot : FVec Ideal ⟨2, ![1, 512]⟩ .f32 := fun i => bo (ix1 (i 1))
/-- The query block the projection launch leaves. -/
abbrev qA : FVec Ideal ⟨2, ![8192, 512]⟩ .f32 := fun i => KSpec.projBlock x W (Bt b) 0 (i 0) (i 1)
/-- The key block the projection launch leaves. -/
abbrev kA : FVec Ideal ⟨2, ![8192, 512]⟩ .f32 := fun i => KSpec.projBlock x W (Bt b) 1 (i 0) (i 1)
/-- The value block the projection launch leaves. -/
abbrev vA : FVec Ideal ⟨2, ![8192, 512]⟩ .f32 := fun i => KSpec.projBlock x W (Bt b) 2 (i 0) (i 1)
/-- The mixed keys the key launch leaves. -/
abbrev knA : FVec Ideal ⟨2, ![8192, 512]⟩ .f32 := fun i => KSpec.keyMix A (kA x W b) (i 0) (i 1)

/-- The scale is a nonnegative constant. -/
theorem scale_nonneg : (0 : EReal) ≤ Spec.scale := by
  simp [Spec.scale, Ideal.ofBits, Ideal.ieee, -EReal.coe_mul]
/-- The scale is not +∞. -/
theorem scale_ne_top : Spec.scale ≠ ⊤ := by
  simp [Spec.scale, Ideal.ofBits, Ideal.ieee, -EReal.coe_mul]

theorem bcol0 (d : Fin 512) : KSpec.bcol 0 d = Spec.qcol d := Fin.ext (by show 512 * 0 + d.val = d.val; omega)
theorem bcol1 (d : Fin 512) : KSpec.bcol 1 d = Spec.kcol d := Fin.ext (by show 512 * 1 + d.val = 512 + d.val; omega)
theorem bcol2 (d : Fin 512) : KSpec.bcol 2 d = Spec.vcol d := Fin.ext (by show 512 * 2 + d.val = 1024 + d.val; omega)

/-- A column block of x·W + b is the joint projection at that block's columns. -/
theorem projBlock_eq (j : Fin 3) (r : Fin 8192) (d : Fin 512) :
    KSpec.projBlock x W (Bt b) j r d = Spec.proj x W b r (KSpec.bcol j d) := by
  unfold KSpec.projBlock Spec.proj
  rfl

theorem qA_eq (r : Fin 8192) (d : Fin 512) : qA x W b (ix2 r d) = Spec.proj x W b r (Spec.qcol d) := by
  show KSpec.projBlock x W (Bt b) 0 r d = _
  rw [projBlock_eq, bcol0]
theorem kA_eq (r : Fin 8192) (d : Fin 512) : kA x W b (ix2 r d) = Spec.proj x W b r (Spec.kcol d) := by
  show KSpec.projBlock x W (Bt b) 1 r d = _
  rw [projBlock_eq, bcol1]
theorem vA_eq (r : Fin 8192) (d : Fin 512) : vA x W b (ix2 r d) = Spec.proj x W b r (Spec.vcol d) := by
  show KSpec.projBlock x W (Bt b) 2 r d = _
  rw [projBlock_eq, bcol2]

/-- The key launch's product is the specification's mixed keys. -/
theorem knA_eq (s : Fin 8192) (d : Fin 512) : knA x A W b (ix2 s d) = Spec.keys x A W b s d := by
  show KSpec.keyMix A (kA x W b) s d = _
  unfold KSpec.keyMix Spec.keys
  refine Finset.sum_congr rfl fun k _ => ?_
  rw [kA_eq]

/-- The logits: the scale applied to the queries first equals the scale applied to the contraction,
    since a nonnegative finite factor moves across a finite sum and (q · c) · k = (q · k) · c. -/
theorem lg_eq (r s : Fin 8192) :
    KSpec.lg (qA x W b) (knA x A W b) r s = Spec.logit x A W b r s := by
  unfold KSpec.lg Spec.logit
  rw [Cert.Lib.ERealSum.sum_mul_const _ _ scale_nonneg scale_ne_top]
  refine Finset.sum_congr rfl fun d _ => ?_
  rw [qA_eq, knA_eq, mul_right_comm]

theorem lgMax_eq (r : Fin 8192) :
    KSpec.lgMax (qA x W b) (knA x A W b) r = Spec.rowMax x A W b r := by
  unfold KSpec.lgMax Spec.rowMax
  exact congrArg (fun g => Finset.fold max Spec.negInf g Finset.univ) (funext fun s => lg_eq x A W b r s)

theorem lgExp_eq (r s : Fin 8192) :
    KSpec.lgExp (qA x W b) (knA x A W b) r s = Spec.expo x A W b r s := by
  unfold KSpec.lgExp Spec.expo
  rw [lg_eq, lgMax_eq]

/-- The attention launch's weights are the specification's softmax weights. -/
theorem attn_eq (r s : Fin 8192) :
    KSpec.attn (qA x W b) (knA x A W b) r s = Spec.weight x A W b r s := by
  unfold KSpec.attn Spec.weight Spec.rowSum
  rw [lgExp_eq]
  congr 1
  exact Finset.sum_congr rfl fun s' _ => lgExp_eq x A W b r s'

/-- The attention launch's output is the specification's output. -/
theorem attnOut_eq (r : Fin 8192) (e : Fin 512) :
    KSpec.attnOut (qA x W b) (knA x A W b) (vA x W b) Wo (Bot bo) r e = Spec.out x A W b Wo bo r e := by
  unfold KSpec.attnOut Spec.out Spec.mixed
  congr 1
  refine Finset.sum_congr rfl fun d _ => ?_
  congr 1
  refine Finset.sum_congr rfl fun s _ => ?_
  rw [attn_eq, vA_eq]

end Cert.Bridge

end
-- ==== Proof.I.Final.lean ====
/-
  The kernel program's two results, at the extended reals, as functions of its six arguments.

  The boundary contents of the run are followed launch by launch: the projection launch reads the input as launched,
  the weight (its rounding to bf16 is the identity on extended reals) and the bias kept as a row, and leaves the
  three column blocks of x·W + b; the key launch reads the adjacency as launched and the key block and leaves their
  product; the attention launch reads the query block, the mixed keys, the value block, the output weight and the
  output bias kept as a row, and leaves the softmax weights and the projected mixture. Composed, these are the
  specification's `weight` and `out` (the one law used: a nonnegative finite scale moves across a finite sum).
-/
import proofs.«108860_j55594056680006_2_alg».proof.Proof.I.Run
import proofs.«108860_j55594056680006_2_alg».proof.Proof.I.V0
import proofs.«108860_j55594056680006_2_alg».proof.Proof.I.V1
import proofs.«108860_j55594056680006_2_alg».proof.Proof.I.V2
import proofs.«108860_j55594056680006_2_alg».proof.Proof.Bridge
import Idealize.ShloMosaic.Lib.ValueLayout
import Idealize.ShloMosaic.Lib.StableHlo.Run

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The six arguments as launched, on core `c`. -/
abbrev aX (c : Dev nD) : FVec Ideal ⟨2, ![8192, 512]⟩ .f32 := m ((c : Thread nD τ).loc main_arg0)
abbrev aA (c : Dev nD) : FVec Ideal ⟨2, ![8192, 8192]⟩ .f32 := m ((c : Thread nD τ).loc main_arg1)
abbrev aW (c : Dev nD) : FVec Ideal ⟨2, ![512, 1536]⟩ .f32 := m ((c : Thread nD τ).loc main_arg2)
abbrev aB (c : Dev nD) : FVec Ideal ⟨1, ![1536]⟩ .f32 := m ((c : Thread nD τ).loc main_arg3)
abbrev aWo (c : Dev nD) : FVec Ideal ⟨2, ![512, 512]⟩ .f32 := m ((c : Thread nD τ).loc main_arg4)
abbrev aBo (c : Dev nD) : FVec Ideal ⟨1, ![512]⟩ .f32 := m ((c : Thread nD τ).loc main_arg5)

/-! ## What the projection launch is entered from -/

theorem in0_x (c : Dev nD) : Hand.V1 m ρ c main_arg0 = aX m c :=
  StableHlo.after_of_writes_sub hostOps0 _ hostOps0_writes (r := main_arg0) (by decide)

/-- The weight rounded to bf16 is the weight: a change of format is the identity on extended reals. -/
theorem in0_w (c : Dev nD) : (Hand.V1 m ρ c main_v0 : S512x1536.Idx → EReal) = aW m c := by
  dsimp only [Hand.V1, Hand.W1, Hand.W0, hostOps0]; after_results <;> rfl

/-- The bias kept as a row. -/
theorem in0_b (c : Dev nD) : (Hand.V1 m ρ c main_v1 : S1x1536.Idx → EReal) = Cert.Bridge.Bt (aB m c) := by
  have e : (Hand.V1 m ρ c main_v1 : S1x1536.Idx → EReal) = shapeCast S1x1536 (m ((c : Thread nD τ).loc main_arg3)) shapeCasts_S1536_S1x1536 := by
    dsimp only [Hand.V1, Hand.W1, Hand.W0, hostOps0]; after_results <;> rfl
  rw [e]
  funext i
  obtain ⟨u, q, rfl⟩ : ∃ (u : Fin 1) (q : Fin 1536), i = ix2 u q := ⟨i 0, i 1, eq_ix2 i⟩
  exact shapeCast_a_1a_apply _ _ u q

/-! ## What the projection launch leaves -/

theorem q_arr (c : Dev nD) : (Hand.W2 m ρ c (Proc.devRef .tc main_v2_0) : S8192x512.Idx → EReal) = Cert.Bridge.qA (aX m c) (aW m c) (aB m c) := by
  refine (Hand.W2_arr m ρ c 3).trans ((final0_3 (Hand.V1 m ρ) c).trans ?_)
  rw [in0_x, in0_w, in0_b]
  all_goals rfl
theorem k_arr (c : Dev nD) : (Hand.W2 m ρ c (Proc.devRef .tc main_v2_1) : S8192x512.Idx → EReal) = Cert.Bridge.kA (aX m c) (aW m c) (aB m c) := by
  refine (Hand.W2_arr m ρ c 4).trans ((final0_4 (Hand.V1 m ρ) c).trans ?_)
  rw [in0_x, in0_w, in0_b]
  all_goals rfl
theorem v_arr (c : Dev nD) : (Hand.W2 m ρ c (Proc.devRef .tc main_v2_2) : S8192x512.Idx → EReal) = Cert.Bridge.vA (aX m c) (aW m c) (aB m c) := by
  refine (Hand.W2_arr m ρ c 5).trans ((final0_5 (Hand.V1 m ρ) c).trans ?_)
  rw [in0_x, in0_w, in0_b]
  all_goals rfl

/-! ## The key launch -/

theorem in1_a (c : Dev nD) : Hand.V2 m ρ c main_arg1 = aA m c :=
  (Hand.W2_of_ne m ρ c main_arg1 (by decide)).trans
    (StableHlo.after_of_writes_sub hostOps0 _ hostOps0_writes (r := main_arg1) (by decide))

theorem kn_arr (c : Dev nD) : (Hand.W3 m ρ c (Proc.devRef .tc main_v3) : S8192x512.Idx → EReal)
    = Cert.Bridge.knA (aX m c) (aA m c) (aW m c) (aB m c) := by
  refine (Hand.W3_arr m ρ c 2).trans ((final1_2 (Hand.V2 m ρ) c).trans ?_)
  rw [in1_a, show Hand.V2 m ρ c main_v2_1 = Cert.Bridge.kA (aX m c) (aW m c) (aB m c) from k_arr m ρ c]
  all_goals rfl

/-! ## What the attention launch is entered from -/

theorem in2_q (c : Dev nD) : (Hand.V4 m ρ c main_v2_0 : S8192x512.Idx → EReal) = Cert.Bridge.qA (aX m c) (aW m c) (aB m c) :=
  (StableHlo.after_of_writes_sub hostOps2 _ hostOps2_writes (r := main_v2_0) (by decide)).trans
    ((Hand.W3_of_ne m ρ c main_v2_0 (by decide)).trans (q_arr m ρ c))
theorem in2_v (c : Dev nD) : (Hand.V4 m ρ c main_v2_2 : S8192x512.Idx → EReal) = Cert.Bridge.vA (aX m c) (aW m c) (aB m c) :=
  (StableHlo.after_of_writes_sub hostOps2 _ hostOps2_writes (r := main_v2_2) (by decide)).trans
    ((Hand.W3_of_ne m ρ c main_v2_2 (by decide)).trans (v_arr m ρ c))
theorem in2_kn (c : Dev nD) : (Hand.V4 m ρ c main_v3 : S8192x512.Idx → EReal) = Cert.Bridge.knA (aX m c) (aA m c) (aW m c) (aB m c) :=
  (StableHlo.after_of_writes_sub hostOps2 _ hostOps2_writes (r := main_v3) (by decide)).trans (kn_arr m ρ c)

/-- An argument the first two launches do not touch reaches the second host stretch as launched. -/
theorem W3_arg4 (c : Dev nD) : Hand.W3 m ρ c (Proc.devRef .tc main_arg4) = m ((c : Thread nD τ).loc main_arg4) :=
  (Hand.W3_of_ne m ρ c main_arg4 (by decide)).trans ((Hand.W2_of_ne m ρ c main_arg4 (by decide)).trans
    (StableHlo.after_of_writes_sub hostOps0 _ hostOps0_writes (r := main_arg4) (by decide)))
theorem W3_arg5 (c : Dev nD) : Hand.W3 m ρ c (Proc.devRef .tc main_arg5) = m ((c : Thread nD τ).loc main_arg5) :=
  (Hand.W3_of_ne m ρ c main_arg5 (by decide)).trans ((Hand.W2_of_ne m ρ c main_arg5 (by decide)).trans
    (StableHlo.after_of_writes_sub hostOps0 _ hostOps0_writes (r := main_arg5) (by decide)))

theorem in2_wo (c : Dev nD) : (Hand.V4 m ρ c main_v4 : S512x512.Idx → EReal) = aWo m c := by
  have e : (Hand.V4 m ρ c main_v4 : S512x512.Idx → EReal) = (truncf .bf16 (Hand.W3 m ρ c (Proc.devRef .tc main_arg4)) bitsLt_bf16_f32 : FVec Ideal S512x512 .bf16) := by
    dsimp only [Hand.V4, Hand.W4, hostOps2]; after_results <;> rfl
  rw [e, W3_arg4]; rfl
theorem in2_bo (c : Dev nD) : (Hand.V4 m ρ c main_v5 : S1x512.Idx → EReal) = Cert.Bridge.Bot (aBo m c) := by
  have e : (Hand.V4 m ρ c main_v5 : S1x512.Idx → EReal) = shapeCast S1x512 (Hand.W3 m ρ c (Proc.devRef .tc main_arg5)) shapeCasts_S512_S1x512 := by
    dsimp only [Hand.V4, Hand.W4, hostOps2]; after_results <;> rfl
  rw [e, W3_arg5]
  funext i
  obtain ⟨u, q, rfl⟩ : ∃ (u : Fin 1) (q : Fin 512), i = ix2 u q := ⟨i 0, i 1, eq_ix2 i⟩
  exact shapeCast_a_1a_apply _ _ u q

/-! ## The results -/

/-- The first result: the projected mixture. -/
theorem result_out (c : Dev nD) : (Hand.W5 m ρ c (Proc.devRef .tc main_v6_1) : S8192x512.Idx → EReal)
    = Cert.Spec.outArr (aX m c) (aA m c) (aW m c) (aB m c) (aWo m c) (aBo m c) := by
  refine (Hand.W5_arr m ρ c 6).trans ((final2_6 (Hand.V4 m ρ) c).trans ?_)
  dsimp only [Qa, Kna, Vta, Wota, Bota]
  rw [in2_q, in2_kn, in2_v, in2_wo, in2_bo]
  funext i
  exact Cert.Bridge.attnOut_eq _ _ _ _ _ _ (i 0) (i 1)

/-- The second result: the softmax weights. -/
theorem result_weight (c : Dev nD) : (Hand.W5 m ρ c (Proc.devRef .tc main_v6_0) : S8192x8192.Idx → EReal)
    = Cert.Spec.weightArr (aX m c) (aA m c) (aW m c) (aB m c) := by
  refine (Hand.W5_arr m ρ c 5).trans ((final2_5 (Hand.V4 m ρ) c).trans ?_)
  dsimp only [Qa, Kna]
  rw [in2_q, in2_kn]
  funext i
  exact Cert.Bridge.attn_eq _ _ _ _ (i 0) (i 1)

end Cert.KernelIdeal.HandV

end
-- ==== Proof.LibScatterConst.lean ====
/-
  Two general facts about array operations, free of any particular program.

  A scatter that overwrites with one constant.  A scatter whose body returns the update, and whose update values are all
  one constant c, is a left fold of overwrites by c over the update indices.  Because every overwrite writes the same
  value, neither the order of the updates nor how many of them share a target matters: at an operand index i' the
  result is c when some update index lands at i', and the operand's element when none does.  This is proved first for a
  fold over any list of steps that each overwrite at most one index with c (foldl_overwrite_const), then for the
  scatter (scatter_const_apply).

  A maximum over a finite set.  The fold of the maximum from a starting value b over a finite family is at least
  every member (le_fold_of_mem), and is b or one of the members (fold_eq_init_or_mem); and the reduction by maximum over
  the second axis of a two-axis array of extended reals is, at row p, that fold over the row's entries
  (hostReduce_max_rows).
-/
import Idealize.ShloMosaic.PureOps.ShapeOps
import Idealize.ShloMosaic.PureOps.Reduce
import Idealize.ShloMosaic.PureOps.Ideal.Laws
import Idealize.ShloMosaic.Lib.ValueIdx

noncomputable section

namespace Cert.ScatterConst

open Idealize.ShloMosaic Idealize.ShloMosaic.ValueIdx

/-- Overwriting by one constant, folded over a list of steps. Step `k` has a target `R k` (or none): with a target `i` it
    makes the function `c` at `i` and leaves it alone elsewhere, with no target it leaves it alone everywhere. After the
    whole list the function is, at `i'`, either `c`, and then some step of the list targeted `i'`, or what it was at the
    start, and then no step of the list targeted `i'`. No order of the steps matters: every overwrite writes the same
    value. -/
theorem foldl_overwrite_const {ι κ α : Type} (R : κ → Option ι) (c : α) (step : (ι → α) → κ → ι → α)
    (h_hit : ∀ r k i, R k = some i → step r k i = c)
    (h_miss : ∀ r k i i', R k = some i → i' ≠ i → step r k i' = r i')
    (h_none : ∀ r k, R k = none → step r k = r) (i' : ι) :
    ∀ (l : List κ) (x : ι → α),
      (l.foldl step x i' = c ∧ ∃ k ∈ l, R k = some i') ∨ (l.foldl step x i' = x i' ∧ ∀ k ∈ l, R k ≠ some i')
  | [], x => Or.inr ⟨rfl, fun k hk => absurd hk (List.not_mem_nil)⟩
  | k :: l, x => by
    rw [List.foldl_cons]
    rcases foldl_overwrite_const R c step h_hit h_miss h_none i' l (step x k) with ⟨h1, n, hn, hR⟩ | ⟨h1, h2⟩
    · exact Or.inl ⟨h1, n, List.mem_cons_of_mem _ hn, hR⟩
    · rw [h1]
      cases hk : R k with
      | none =>
        rw [h_none x k hk]
        refine Or.inr ⟨rfl, fun n hn => ?_⟩
        rcases List.mem_cons.1 hn with rfl | hn
        · rw [hk]; exact (Option.some_ne_none i').symm
        · exact h2 n hn
      | some i =>
        by_cases hi : i' = i
        · subst hi
          exact Or.inl ⟨h_hit x k _ hk, k, List.mem_cons_self, hk⟩
        · refine Or.inr ⟨h_miss x k i i' hk hi, fun n hn => ?_⟩
          rcases List.mem_cons.1 hn with rfl | hn
          · rw [hk]; intro e; exact hi (Option.some.inj e).symm
          · exact h2 n hn

/-- A scatter whose body returns the update, with every update value the same `c`: at `i'` the result is `c`, and
    then some update index lands at `i'`, or it is the operand's element, and then no update index lands at `i'`. -/
theorem scatter_const_apply {s si u : Shape} {α : Type} {w : Nat} (d : ScatterDims s si u) (x : s.Idx → α) (idx : IVec si w)
    (upd : u.Idx → α) (c : α) (hupd : ∀ j, upd j = c) (i' : s.Idx) :
    (Host.scatter d (fun _ b => b) x idx upd i' = c
        ∧ ∃ n ∈ List.finRange u.numel, d.resultIdx? (u.rowMajor.symm n) idx = some i')
      ∨ (Host.scatter d (fun _ b => b) x idx upd i' = x i'
        ∧ ∀ n ∈ List.finRange u.numel, d.resultIdx? (u.rowMajor.symm n) idx ≠ some i') := by
  unfold Host.scatter
  refine foldl_overwrite_const (fun n => d.resultIdx? (u.rowMajor.symm n) idx) c _ ?_ ?_ ?_ i' _ x
  · intro r k i hk
    beta_reduce at hk ⊢
    rw [hk]
    dsimp only
    rw [if_pos rfl]
    exact hupd _
  · intro r k i i'' hk hi
    beta_reduce at hk ⊢
    rw [hk]
    dsimp only
    rw [if_neg hi]
  · intro r k hk
    beta_reduce at hk ⊢
    rw [hk]

/-- A fold of the maximum over a finite set, from `b`, is at least every folded value. -/
theorem le_fold_of_mem {ι β : Type} [DecidableEq ι] [LinearOrder β] (op : β → β → β) [Std.Commutative op] [Std.Associative op]
    (hop : ∀ x y, op x y = max x y) (b : β) (f : ι → β) (s : Finset ι) :
    ∀ x ∈ s, f x ≤ s.fold op b f := by
  induction s using Finset.induction_on with
  | empty => intro x hx; simp at hx
  | insert a s ha ih =>
    intro x hx
    rw [Finset.fold_insert ha, hop]
    rcases Finset.mem_insert.1 hx with rfl | hx
    · exact le_max_left _ _
    · exact (ih x hx).trans (le_max_right _ _)

/-- A fold of the maximum over a finite set, from `b`, is `b` or one of the folded values. -/
theorem fold_eq_init_or_mem {ι β : Type} [DecidableEq ι] [LinearOrder β] (op : β → β → β) [Std.Commutative op] [Std.Associative op]
    (hop : ∀ x y, op x y = max x y) (b : β) (f : ι → β) (s : Finset ι) :
    s.fold op b f = b ∨ ∃ x ∈ s, s.fold op b f = f x := by
  induction s using Finset.induction_on with
  | empty => left; simp
  | insert a s ha ih =>
    rw [Finset.fold_insert ha, hop]
    rcases max_choice (f a) (s.fold op b f) with h | h
    · right; exact ⟨a, Finset.mem_insert_self _ _, h⟩
    · rw [h]
      rcases ih with ih | ⟨x, hx, ih⟩
      · left; exact ih
      · right; exact ⟨x, Finset.mem_insert_of_mem hx, ih⟩

/-- The maximum over the second axis of an [a, n] array of extended reals, from the starting value's element: at row
    `p` it is the fold of the maximum over the columns `q` of the entries `(p, q)`. -/
theorem hostReduce_max_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := φ)) y init h' hu (ix1 p)
      = (Finset.univ : Finset (Fin n)).fold (FloatOps.maximumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.maximumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.ScatterConst

end
-- ==== Proof.RefSpec.lean ====
/-
  The reference program computes the specification: stage by stage, each value the reference writes,
  read at explicit coordinates, is the corresponding function of Cert.Spec.
-/
import proofs.«108860_j55594056680006_2_alg».proof.Proof.Gen.ReferenceIdeal.Read
import proofs.«108860_j55594056680006_2_alg».proof.Proof.Spec
import proofs.«108860_j55594056680006_2_alg».proof.Proof.LibScatterConst

noncomputable section

namespace Cert.RefSpec

open Cert.ReferenceIdeal Cert.ReferenceIdeal.Read Idealize.ShloMosaic Idealize.ShloMosaic.ValueIdx

variable (x0 : (⟨S8192x512, .f32⟩ : BufTy).Contents (Elt Ideal)) (x1 : (⟨S8192x8192, .f32⟩ : BufTy).Contents (Elt Ideal))
  (x2 : (⟨S512x1536, .f32⟩ : BufTy).Contents (Elt Ideal)) (x3 : (⟨S1536, .f32⟩ : BufTy).Contents (Elt Ideal))
  (x4 : (⟨S512x512, .f32⟩ : BufTy).Contents (Elt Ideal)) (x5 : (⟨S512, .f32⟩ : BufTy).Contents (Elt Ideal))

/-- The joint projection: the first matrix product plus the broadcast bias. -/
theorem proj_eq (r : Fin 8192) (j : Fin 1536) :
    val_main_v3 (F := Ideal) x0 x2 x3 (ix2 r j) = Spec.proj x0 x2 x3 r j := by
  rw [val_main_v3_apply, val_main_v0_apply, val_main_v2_apply, val_main_v1_apply]
  unfold Spec.proj
  simp only [Ideal.addf_def]
  congr 1
  · refine Finset.sum_congr rfl fun k _ => ?_
    congr 2 <;> exact funext fun a => Fin.ext (by match a with | ⟨0, _⟩ => rfl | ⟨1, _⟩ => rfl)
  · exact congrArg x3 (funext fun a => Fin.ext (by match a with | ⟨0, _⟩ => rfl))

/-- The query block is the first 512 columns of the projection. -/
theorem q_eq (r : Fin 8192) (d : Fin 512) :
    val_main_v4 (F := Ideal) x0 x2 x3 (ix2 r d) = Spec.proj x0 x2 x3 r (Spec.qcol d) := by
  rw [val_main_v4_apply, ← proj_eq]
  exact congrArg _ (funext fun a => Fin.ext (by match a with | ⟨0, _⟩ => rfl | ⟨1, _⟩ => rfl))

/-- The key block is the columns 512..1023 of the projection. -/
theorem k_eq (r : Fin 8192) (d : Fin 512) :
    val_main_v5 (F := Ideal) x0 x2 x3 (ix2 r d) = Spec.proj x0 x2 x3 r (Spec.kcol d) := by
  rw [val_main_v5_apply, ← proj_eq]
  exact congrArg _ (funext fun a => Fin.ext (by match a with | ⟨0, _⟩ => rfl | ⟨1, _⟩ => rfl))

/-- The value block is the columns 1024..1535 of the projection. -/
theorem v_eq (r : Fin 8192) (d : Fin 512) :
    val_main_v6 (F := Ideal) x0 x2 x3 (ix2 r d) = Spec.proj x0 x2 x3 r (Spec.vcol d) := by
  rw [val_main_v6_apply, ← proj_eq]
  exact congrArg _ (funext fun a => Fin.ext (by match a with | ⟨0, _⟩ => rfl | ⟨1, _⟩ => rfl))

/-- The keys mixed through the adjacency matrix. -/
theorem keys_eq (r : Fin 8192) (d : Fin 512) :
    val_main_v7 (F := Ideal) x0 x1 x2 x3 (ix2 r d) = Spec.keys x0 x1 x2 x3 r d := by
  rw [val_main_v7_apply]
  unfold Spec.keys
  refine Finset.sum_congr rfl fun k _ => ?_
  rw [← k_eq]
  congr 2 <;> exact funext fun a => Fin.ext (by match a with | ⟨0, _⟩ => rfl | ⟨1, _⟩ => rfl)

/-- The scaled logits: the query block against the transposed mixed keys, times the scale constant. -/
theorem logit_eq (r s : Fin 8192) :
    val_main_v11 (F := Ideal) x0 x1 x2 x3 (ix2 r s) = Spec.logit x0 x1 x2 x3 r s := by
  rw [val_main_v11_apply, val_main_v9_apply, val_main_v10_apply, val_main_cst_apply]
  unfold Spec.logit
  simp only [Ideal.mulf_def, Ideal.ofBits_def]
  congr 1
  refine Finset.sum_congr rfl fun k _ => ?_
  rw [val_main_v8_apply, ← q_eq, ← keys_eq]
  congr 2 <;> exact funext fun a => Fin.ext (by match a with | ⟨0, _⟩ => rfl | ⟨1, _⟩ => rfl)

/-- The reduction over the second axis by the maximum, started at −∞, is the row maximum. -/
theorem v12_eq (r : Fin 8192) :
    val_main_v12 (F := Ideal) x0 x1 x2 x3 (ix1 r) = Spec.rowMax x0 x1 x2 x3 r := by
  unfold val_main_v12
  refine (Cert.ScatterConst.hostReduce_max_rows (val_main_v11 (F := Ideal) x0 x1 x2 x3) _ _ (by decide) _ r).trans ?_
  unfold Spec.rowMax
  show Finset.univ.fold max Spec.negInf (fun q => val_main_v11 (F := Ideal) x0 x1 x2 x3 (ix2 r q)) = _
  exact congrArg (fun g => Finset.fold max Spec.negInf g Finset.univ) (funext fun q => logit_eq x0 x1 x2 x3 r q)

/-- The extra maximum against the constant −∞ changes nothing: max ⊥ m = m. -/
theorem rowMax_eq (r : Fin 8192) :
    val_main_v14 (F := Ideal) x0 x1 x2 x3 (ix1 r) = Spec.rowMax x0 x1 x2 x3 r := by
  rw [val_main_v14_apply, val_main_v13_apply, val_main_cst_1_apply, v12_eq]
  simp only [Ideal.maximumf_def, Ideal.ofBits_def]
  have h : Ideal.ofBits .f32 0xFF800000#32 = (⊥ : EReal) := by simp [Ideal.ofBits, Ideal.ieee]
  rw [h]
  exact max_bot_left _

/-- The shifted exponential. -/
theorem expo_eq (r s : Fin 8192) :
    val_main_v18 (F := Ideal) x0 x1 x2 x3 (ix2 r s) = Spec.expo x0 x1 x2 x3 r s := by
  rw [val_main_v18_apply, val_main_v17_apply, val_main_v16_apply, val_main_v15_apply, logit_eq]
  have e : idx_main_v15 (idx_main_v16 (ix2 r s)) = ix1 r := funext fun a => Fin.ext (by match a with | ⟨0, _⟩ => rfl)
  rw [e, rowMax_eq]
  simp only [Ideal.hostUnary_exp_def, Ideal.subf_def]
  rfl

/-- The row sum of the exponentials: the sum starts at the constant 0. -/
theorem rowSum_eq (r : Fin 8192) :
    val_main_v19 (F := Ideal) x0 x1 x2 x3 (ix1 r) = Spec.rowSum x0 x1 x2 x3 r := by
  rw [val_main_v19_apply, val_main_cst_2_apply]
  simp only [Ideal.ofBits_def, Ideal.ofBits_zero_f32, zero_add]
  unfold Spec.rowSum
  refine Finset.sum_congr rfl fun k _ => ?_
  rw [← expo_eq]
  exact congrArg _ (funext fun a => Fin.ext (by match a with | ⟨0, _⟩ => rfl | ⟨1, _⟩ => rfl))

/-- The softmax weight: the exponential over its row sum. -/
theorem weight_eq (r s : Fin 8192) :
    val_main_v22 (F := Ideal) x0 x1 x2 x3 (ix2 r s) = Spec.weight x0 x1 x2 x3 r s := by
  rw [val_main_v22_apply, val_main_v21_apply, val_main_v20_apply, expo_eq]
  have e : idx_main_v20 (idx_main_v21 (ix2 r s)) = ix1 r := funext fun a => Fin.ext (by match a with | ⟨0, _⟩ => rfl)
  rw [e, rowSum_eq]
  simp only [Ideal.hostDivf_def]
  rfl

/-- The values mixed by the weights. -/
theorem mixed_eq (r : Fin 8192) (d : Fin 512) :
    val_main_v23 (F := Ideal) x0 x1 x2 x3 (ix2 r d) = Spec.mixed x0 x1 x2 x3 r d := by
  rw [val_main_v23_apply]
  unfold Spec.mixed
  refine Finset.sum_congr rfl fun k _ => ?_
  rw [← weight_eq, ← v_eq]
  congr 2 <;> exact funext fun a => Fin.ext (by match a with | ⟨0, _⟩ => rfl | ⟨1, _⟩ => rfl)

/-- The output projection plus the broadcast bias. -/
theorem out_eq (r : Fin 8192) (e : Fin 512) :
    val_main_v27 (F := Ideal) x0 x1 x2 x3 x4 x5 (ix2 r e) = Spec.out x0 x1 x2 x3 x4 x5 r e := by
  rw [val_main_v27_apply, val_main_v24_apply, val_main_v26_apply, val_main_v25_apply]
  unfold Spec.out
  simp only [Ideal.addf_def]
  congr 1
  · refine Finset.sum_congr rfl fun k _ => ?_
    rw [← mixed_eq]
    congr 2 <;> exact funext fun a => Fin.ext (by match a with | ⟨0, _⟩ => rfl | ⟨1, _⟩ => rfl)
  · exact congrArg x5 (funext fun a => Fin.ext (by match a with | ⟨0, _⟩ => rfl))

/-- The reference's first result is the specification's output array. -/
theorem ref_out : val_main_v27 (F := Ideal) x0 x1 x2 x3 x4 x5 = Spec.outArr x0 x1 x2 x3 x4 x5 :=
  funext fun i => by
    obtain ⟨r, e, rfl⟩ : ∃ (r : Fin 8192) (e : Fin 512), i = ix2 r e := ⟨i 0, i 1, eq_ix2 i⟩
    rw [out_eq]
    rfl

/-- The reference's second result is the specification's weight array. -/
theorem ref_weight : val_main_v22 (F := Ideal) x0 x1 x2 x3 = Spec.weightArr x0 x1 x2 x3 :=
  funext fun i => by
    obtain ⟨r, s, rfl⟩ : ∃ (r s : Fin 8192), i = ix2 r s := ⟨i 0, i 1, eq_ix2 i⟩
    rw [weight_eq]
    rfl

end Cert.RefSpec

end
-- ==== Proof.lean ====
/-
  The certificate of a graph-attention kernel against its jnp reference, over the extended reals.

  Both programs take x : [8192, 512], A : [8192, 8192], W : [512, 1536], b : [1536], Wo : [512, 512], bo : [512] and
  return (out, weight): with proj = x·W + b cut into column blocks Q | K | V, keys = A·K, logit = (Q·keysᵀ)·c for the
  binary value c of 1/√512, weight = the row softmax of logit, and out = (weight·V)·Wo + bo (`Spec.lean`).

  The kernel program is three launches among four host operations: the projection (8 row blocks), the key product
  accumulated over four column blocks of A in a scratch buffer carried between grid points, and the fused attention
  (128 row blocks), which applies the scale to the queries before the product. Its frame — it runs to the end,
  nothing faults, the arguments end as launched — is proved for both the word-level and the idealized program from
  one text generic in the float instance (`B/`, `I/`: each launch's body by symbolic execution, the run over the
  launches as segments). At the extended reals the three launches' results are read index by index (`I/V0–V2`),
  composed (`I/Final`), and met with the reference's composed term (`RefSpec`): a change of float format is the
  identity, a product accumulated block by block is the whole sum, and the one law between the two arrangements is
  that the nonnegative finite scale moves across the finite sum of a logit (`Bridge`). No finiteness of the inputs is
  used. The idealization rewrote nothing, so `preserves` asks nothing.
-/
import proofs.«108860_j55594056680006_2_alg».proof.Defs
import proofs.«108860_j55594056680006_2_alg».proof.Proof.Gen.Kernel
import proofs.«108860_j55594056680006_2_alg».proof.Proof.Gen.KernelIdeal
import proofs.«108860_j55594056680006_2_alg».proof.Proof.Gen.ReferenceIdeal
import proofs.«108860_j55594056680006_2_alg».proof.Proof.Gen.ReferenceIdeal.Run
import proofs.«108860_j55594056680006_2_alg».proof.Proof.Gen.ReferenceIdeal.Read
import proofs.«108860_j55594056680006_2_alg».proof.Proof.Gen.Pre_finite_inputs
import proofs.«108860_j55594056680006_2_alg».proof.Proof.B.Run
import proofs.«108860_j55594056680006_2_alg».proof.Proof.I.Run
import proofs.«108860_j55594056680006_2_alg».proof.Proof.I.Final
import proofs.«108860_j55594056680006_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2.2) (Cert.Kernel.Hand.run (F := Bits) m ρ)

/-- The idealized kernel program runs and leaves its arguments as launched. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2.2) (Cert.KernelIdeal.Hand.run (F := Ideal) m ρ)

/-- The reference runs and leaves its arguments as launched: its run with the results dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.ReferenceIdeal.Value.run (F := Ideal) m ρ)

/-- From memories agreeing on the arguments both programs end with the specification's `out` and `weight` of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.outArr (Cert.KernelIdeal.HandV.aX m c) (Cert.KernelIdeal.HandV.aA m c) (Cert.KernelIdeal.HandV.aW m c)
      (Cert.KernelIdeal.HandV.aB m c) (Cert.KernelIdeal.HandV.aWo m c) (Cert.KernelIdeal.HandV.aBo m c),
    fun c => Cert.Spec.weightArr (Cert.KernelIdeal.HandV.aX m c) (Cert.KernelIdeal.HandV.aA m c) (Cert.KernelIdeal.HandV.aW m c)
      (Cert.KernelIdeal.HandV.aB m c), ?_, ?_⟩
  · exact (θ_run (Cert.KernelIdeal.defs (F := Ideal)) _ _).mono
      (fun _ h c => ⟨(h c).1.trans (Cert.KernelIdeal.HandV.result_out m ρ c), (h c).2.1.trans (Cert.KernelIdeal.HandV.result_weight m ρ c), (h c).2.2⟩)
      (Cert.KernelIdeal.Hand.run (F := Ideal) m ρ)
  · refine (θ_run (Cert.ReferenceIdeal.defs (F := Ideal)) _ _).mono (fun _ h c => ⟨?_, ?_, (h c).2.2⟩)
      (Cert.ReferenceIdeal.Value.run (F := Ideal) m' ρ')
    · rw [(h c).1, Cert.ReferenceIdeal.Read.val_main_v27_eq, Cert.RefSpec.ref_out,
        (hagree c).1, (hagree c).2.1, (hagree c).2.2.1, (hagree c).2.2.2.1, (hagree c).2.2.2.2.1, (hagree c).2.2.2.2.2]
    · rw [(h c).2.1, Cert.ReferenceIdeal.Read.val_main_v22_eq, Cert.RefSpec.ref_weight,
        (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
